-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000x1 : S_.BroadcastsInDim S800000x1 (![] : Fin 0 → Fin S800000x1.rank)
  reducesTo_S800000x1_S_d0_1 : S800000x1.ReducesTo [0, 1] S_
  bcast_S_S200000x1 : S_.BroadcastsInDim S200000x1 (![] : Fin 0 → Fin S200000x1.rank)
  reducesTo_S200000x1_S_d0_1 : S200000x1.ReducesTo [0, 1] S_
  bcast_S_S400000x1 : S_.BroadcastsInDim S400000x1 (![] : Fin 0 → Fin S400000x1.rank)
  reducesTo_S400000x1_S_d0_1 : S400000x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S200000x1 .f32) (main_arg12 : FVec F S400000x1 .f32) (main_arg13 : FVec F S200000x1 .f32) (main_v48 : IVec S_ 1) (main_v49 : FVec F S800000x1 .f32) (main_v50 : FVec F S800000x1 .f32) : IVec S_ 1 :=
  let main_v51 : IVec S800000x1 1 := cmpf .olt main_v49 main_v50
  let main_c_19 : IVec S_ 1 := constantI S_ 1 1#1
  let main_v52 : IVec S_ 1 := (fun x v => Host.reduce IntOp.andi x v reducesTo_S800000x1_S_d0_1 h_S_) main_v51 main_c_19
  let main_v53 : IVec S_ 1 := andi main_v48 main_v52
  let main_v54 : FVec F S200000x1 .f32 := Host.absf main_arg11
  let main_cst_20 : FVec F S_ .f32 := constant S_ .f32 0x7F800000#32
  let main_v55 : FVec F S200000x1 .f32 := broadcastInDim S200000x1 ![] bcast_S_S200000x1 main_cst_20
  let main_v56 : IVec S200000x1 1 := cmpf .olt main_v54 main_v55
  let main_c_21 : IVec S_ 1 := constantI S_ 1 1#1
  let main_v57 : IVec S_ 1 := (fun x v => Host.reduce IntOp.andi x v reducesTo_S200000x1_S_d0_1 h_S_) main_v56 main_c_21
  let main_v58 : IVec S_ 1 := andi main_v53 main_v57
  let main_v59 : FVec F S400000x1 .f32 := Host.absf main_arg12
  let main_cst_22 : FVec F S_ .f32 := constant S_ .f32 0x7F800000#32
  let main_v60 : FVec F S400000x1 .f32 := broadcastInDim S400000x1 ![] bcast_S_S400000x1 main_cst_22
  let main_v61 : IVec S400000x1 1 := cmpf .olt main_v59 main_v60
  let main_c_23 : IVec S_ 1 := constantI S_ 1 1#1
  let main_v62 : IVec S_ 1 := (fun x v => Host.reduce IntOp.andi x v reducesTo_S400000x1_S_d0_1 h_S_) main_v61 main_c_23
  let main_v63 : IVec S_ 1 := andi main_v58 main_v62
  let main_v64 : FVec F S200000x1 .f32 := Host.absf main_arg13
  let main_cst_24 : FVec F S_ .f32 := constant S_ .f32 0x7F800000#32
  let main_v65 : FVec F S200000x1 .f32 := broadcastInDim S200000x1 ![] bcast_S_S200000x1 main_cst_24
  let main_v66 : IVec S200000x1 1 := cmpf .olt main_v64 main_v65
  let main_c_25 : IVec S_ 1 := constantI S_ 1 1#1
  let main_v67 : IVec S_ 1 := (fun x v => Host.reduce IntOp.andi x v reducesTo_S200000x1_S_d0_1 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S800000x1 .f32 := Host.absf main_arg10
  let main_cst_18 : FVec F S_ .f32 := constant S_ .f32 0x7F800000#32
  let main_v50 : FVec F S800000x1 .f32 := broadcastInDim S800000x1 ![] bcast_S_S800000x1 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S25000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S800000x1 .f32) (main_arg11 : FVec F S200000x1 .f32) (main_arg12 : FVec F S400000x1 .f32) (main_arg13 : FVec F S200000x1 .f32) (main_arg14 : IVec S800000 32) (main_arg15 : IVec S800000 32) (main_arg16 : IVec S200000 32) (main_arg17 : IVec S200000 32) (main_arg18 : IVec S400000 32) (main_arg19 : IVec S400000 32) (main_arg20 : IVec S200000 32) (main_arg21 : IVec S200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S10000x128 : Shape := ⟨2, ![10000, 128]⟩
abbrev S1x128 : Shape := ⟨2, ![1, 128]⟩
abbrev S256x128 : Shape := ⟨2, ![256, 128]⟩
abbrev S256 : Shape := ⟨1, ![256]⟩
abbrev S25000x256 : Shape := ⟨2, ![25000, 256]⟩
abbrev S5000x128 : Shape := ⟨2, ![5000, 128]⟩
abbrev S5000x256 : Shape := ⟨2, ![5000, 256]⟩
abbrev S128x256 : Shape := ⟨2, ![128, 256]⟩
abbrev S1x256 : Shape := ⟨2, ![1, 256]⟩
abbrev S_ : Shape := ⟨0, ![]⟩
abbrev S800000x128 : Shape := ⟨2, ![800000, 128]⟩
abbrev S200000x128 : Shape := ⟨2, ![200000, 128]⟩
abbrev S400000x128 : Shape := ⟨2, ![400000, 128]⟩

abbrev nBuf : Space → Nat
  | .hbm => 95
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S25000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S800000x1, .f32⟩
  | .hbm, ⟨11, _⟩ => ⟨S200000x1, .f32⟩
  | .hbm, ⟨12, _⟩ => ⟨S400000x1, .f32⟩
  | .hbm, ⟨13, _⟩ => ⟨S200000x1, .f32⟩
  | .hbm, ⟨14, _⟩ => ⟨S800000, .i32⟩
  | .hbm, ⟨15, _⟩ => ⟨S800000, .i32⟩
  | .hbm, ⟨16, _⟩ => ⟨S200000, .i32⟩
  | .hbm, ⟨17, _⟩ => ⟨S200000, .i32⟩
  | .hbm, ⟨18, _⟩ => ⟨S400000, .i32⟩
  | .hbm, ⟨19, _⟩ => ⟨S400000, .i32⟩
  | .hbm, ⟨20, _⟩ => ⟨S200000, .i32⟩
  | .hbm, ⟨21, _⟩ => ⟨S200000, .i32⟩
  | .hbm, ⟨22, _⟩ => ⟨S50000x128, .bf16⟩
  | .hbm, ⟨23, _⟩ => ⟨S256x128, .f32⟩
  | .hbm, ⟨24, _⟩ => ⟨S256, .f32⟩
  | .hbm, ⟨25, _⟩ => ⟨S25000x256, .bf16⟩
  | .hbm, ⟨26, _⟩ => ⟨S25000x128, .bf16⟩
  | .hbm, ⟨27, _⟩ => ⟨S25000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x128, .bf16⟩
  | .hbm, ⟨53, _⟩ => ⟨S200000x128, .f32⟩
  | .hbm, ⟨54, _⟩ => ⟨S200000x128, .f32⟩
  | .hbm, ⟨55, _⟩ => ⟨S200000x128, .f32⟩
  | .hbm, ⟨56, _⟩ => ⟨S_, .f32⟩
  | .hbm, ⟨57, _⟩ => ⟨S50000x128, .f32⟩
  | .hbm, ⟨58, _⟩ => ⟨S200000x1, .i32⟩
  | .hbm, ⟨59, _⟩ => ⟨S50000x128, .f32⟩
  | .hbm, ⟨60, _⟩ => ⟨S50000x128, .f32⟩
  | .hbm, ⟨61, _⟩ => ⟨S50000x128, .bf16⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S400000x128, .bf16⟩
  | .hbm, ⟨71, _⟩ => ⟨S400000x128, .f32⟩
  | .hbm, ⟨72, _⟩ => ⟨S400000x128, .f32⟩
  | .hbm, ⟨73, _⟩ => ⟨S400000x128, .f32⟩
  | .hbm, ⟨74, _⟩ => ⟨S_, .f32⟩
  | .hbm, ⟨75, _⟩ => ⟨S25000x128, .f32⟩
  | .hbm, ⟨76, _⟩ => ⟨S400000x1, .i32⟩
  | .hbm, ⟨77, _⟩ => ⟨S25000x128, .f32⟩
  | .hbm, ⟨78, _⟩ => ⟨S_, .i32⟩
  | .hbm, ⟨79, _⟩ => ⟨S200000, .i32⟩
  | .hbm, ⟨80, _⟩ => ⟨S200000, .i1⟩
  | .hbm, ⟨81, _⟩ => ⟨S_, .i32⟩
  | .hbm, ⟨82, _⟩ => ⟨S200000, .i32⟩
  | .hbm, ⟨83, _⟩ => ⟨S200000, .i32⟩
  | .hbm, ⟨84, _⟩ => ⟨S200000, .i32⟩
  | .hbm, ⟨85, _⟩ => ⟨S200000x1, .i32⟩
  | .hbm, ⟨86, _⟩ => ⟨S200000x128, .bf16⟩
  | .hbm, ⟨87, _⟩ => ⟨S200000x128, .f32⟩
  | .hbm, ⟨88, _⟩ => ⟨S200000x128, .f32⟩
  | .hbm, ⟨89, _⟩ => ⟨S200000x128, .f32⟩
  | .hbm, ⟨90, _⟩ => ⟨S_, .f32⟩
  | .hbm, ⟨91, _⟩ => ⟨S25000x128, .f32⟩
  | .hbm, ⟨92, _⟩ => ⟨S200000x1, .i32⟩
  | .hbm, ⟨93, _⟩ => ⟨S25000x128, .f32⟩
  | .hbm, ⟨94, _⟩ => ⟨S25000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .bf16⟩
  | .local _ .vmem, ⟨5, _⟩ => ⟨S10000x128, .bf16⟩
  | .local _ .vmem, ⟨6, _⟩ => ⟨S5000x128, .f32⟩
  | .local _ .vmem, ⟨7, _⟩ => ⟨S5000x128, .f32⟩
  | .local _ .vmem, ⟨8, _⟩ => ⟨S256x128, .f32⟩
  | .local _ .vmem, ⟨9, _⟩ => ⟨S256, .f32⟩
  | .local _ .vmem, ⟨10, _⟩ => ⟨S5000x256, .bf16⟩
  | .local _ .vmem, ⟨11, _⟩ => ⟨S5000x256, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32_0 : Ref sig .tc := ⟨.hbm, 60, rfl⟩
abbrev main_v32_1 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_7 : Ref sig .tc := ⟨.hbm, 78, rfl⟩
abbrev main_v46 : Ref sig .tc := ⟨.hbm, 79, rfl⟩
abbrev main_v47 : Ref sig .tc := ⟨.hbm, 80, rfl⟩
abbrev main_c_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  concatenates_S128x128_S128x128_S256x128_d0 : Shape.Concatenates [S128x128, S128x128] S256x128 0
  concatenates_S128_S128_S256_d0 : Shape.Concatenates [S128, S128] S256 0
  inb_S5000x128_S5000x128_0_0 : ∀ a, (![0, 0] : Fin 2 → Nat) a + S5000x128.size a ≤ S5000x128.size a
  h_S5000x128 : 0 < S5000x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  slices_S25000x256_S25000x128_0_0 : S25000x256.Slices ![0, 0] S25000x128
  slices_S25000x256_S25000x128_0_128 : S25000x256.Slices ![0, 128] S25000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S5000x128_S5000x128 : S5000x128.ShapeCasts S5000x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S25000x128 : S_.BroadcastsInDim S25000x128 (![] : Fin 0 → Fin S25000x128.rank)
  dot_S10000x128_S128x128_S10000x128_1_0_0_1_n_n_wf : DotDims.WF S10000x128 S128x128 S10000x128 [1] [0] [0] [1] [] []
  dot_S5000x128_S128x256_S5000x256_1_0_0_1_n_n_wf : DotDims.WF S5000x128 S128x256 S5000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S25000x128_S200000x1_S200000x128_1_0_n_n_0_1_1128_wf : GatherDims.WF S25000x128 S200000x1 S200000x128 [1] [0] [] [0] [] 1 ![1, 128]
  scatter_S50000x128_S200000x1_S200000x128_1_0_0_1_wf : ScatterDims.WF S50000x128 S200000x1 S200000x128 [1] [0] [0] 1
  dot_S5000x128_S128x128_S5000x128_1_0_0_1_n_n_wf : DotDims.WF S5000x128 S128x128 S5000x128 [1] [0] [0] [1] [] []
  gather_S25000x128_S400000x1_S400000x128_1_0_n_n_0_1_1128_wf : GatherDims.WF S25000x128 S400000x1 S400000x128 [1] [0] [] [0] [] 1 ![1, 128]
  scatter_S25000x128_S400000x1_S400000x128_1_0_0_1_wf : ScatterDims.WF S25000x128 S400000x1 S400000x128 [1] [0] [0] 1
  gather_S50000x128_S200000x1_S200000x128_1_0_n_n_0_1_1128_wf : GatherDims.WF S50000x128 S200000x1 S200000x128 [1] [0] [] [0] [] 1 ![1, 128]
  scatter_S25000x128_S200000x1_S200000x128_1_0_0_1_wf : ScatterDims.WF S25000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .bf16 = 32 ∨ (Rect.block (s := S50000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S25000x256.size a
  hwx1_3 : ∀ i : grid1.Coords, EltTy.bits .bf16 = 32 ∨ (Rect.block (s := S25000x256) S5000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S25000x128.size a
  hwx3_1 : ∀ i : grid3.Coords, EltTy.bits .f32 = 32 ∨ (Rect.block (s := S25000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .f32 = 32 ∨ (Rect.block (s := S25000x128) S5000x128.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S25000x128_S200000x1_S200000x128_1_0_n_n_0_1_1128 : GatherDims S25000x128 S200000x1 S200000x128 where
  offsetDims := [1]
  collapsedSliceDims := [0]
  operandBatchingDims := []
  startIndicesBatchingDims := []
  startIndexMap := [0]
  indexVectorDim := 1
  sliceSizes := ![1, 128]
  wf := gather_S25000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S25000x128_S200000x1_S200000x128_1_0_0_1 : ScatterDims S25000x128 S200000x1 S200000x128 where
  updateWindowDims := [1]
  insertedWindowDims := [0]
  scatterDimsToOperandDims := [0]
  indexVectorDim := 1
  wf := scatter_S25000x128_S200000x1_S200000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v32_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S25000x128 : Shape := ⟨2, ![25000, 128]⟩
abbrev S128x128 : Shape := ⟨2, ![128, 128]⟩
abbrev S128 : Shape := ⟨1, ![128]⟩
abbrev S800000x1 : Shape := ⟨2, ![800000, 1]⟩
abbrev S200000x1 : Shape := ⟨2, ![200000, 1]⟩
abbrev S400000x1 : Shape := ⟨2, ![400000, 1]⟩
abbrev S800000 : Shape := ⟨1, ![800000]⟩
abbrev S200000 : Shape := ⟨1, ![200000]⟩
abbrev S400000 : Shape := ⟨1, ![400000]⟩
abbrev S_ : Shape := ⟨0, ![]⟩
abbrev S800000x128 : Shape := ⟨2, ![800000, 128]⟩
abbrev S1x128 : Shape := ⟨2, ![1, 128]⟩
abbrev S200000x128 : Shape := ⟨2, ![200000, 128]⟩
abbrev S400000x128 : Shape := ⟨2, ![400000, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S25000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S800000x1, .f32⟩
  | .hbm, ⟨11, _⟩ => ⟨S200000x1, .f32⟩
  | .hbm, ⟨12, _⟩ => ⟨S400000x1, .f32⟩
  | .hbm, ⟨13, _⟩ => ⟨S200000x1, .f32⟩
  | .hbm, ⟨14, _⟩ => ⟨S800000, .i32⟩
  | .hbm, ⟨15, _⟩ => ⟨S800000, .i32⟩
  | .hbm, ⟨16, _⟩ => ⟨S200000, .i32⟩
  | .hbm, ⟨17, _⟩ => ⟨S200000, .i32⟩
  | .hbm, ⟨18, _⟩ => ⟨S400000, .i32⟩
  | .hbm, ⟨19, _⟩ => ⟨S400000, .i32⟩
  | .hbm, ⟨20, _⟩ => ⟨S200000, .i32⟩
  | .hbm, ⟨21, _⟩ => ⟨S200000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S_, .i32⟩
  | .hbm, ⟨43, _⟩ => ⟨S200000, .i32⟩
  | .hbm, ⟨44, _⟩ => ⟨S200000, .i1⟩
  | .hbm, ⟨45, _⟩ => ⟨S_, .i32⟩
  | .hbm, ⟨46, _⟩ => ⟨S200000, .i32⟩
  | .hbm, ⟨47, _⟩ => ⟨S200000, .i32⟩
  | .hbm, ⟨48, _⟩ => ⟨S200000, .i32⟩
  | .hbm, ⟨49, _⟩ => ⟨S200000x1, .i32⟩
  | .hbm, ⟨50, _⟩ => ⟨S200000x128, .f32⟩
  | .hbm, ⟨51, _⟩ => ⟨S128x128, .f32⟩
  | .hbm, ⟨52, _⟩ => ⟨S200000x128, .f32⟩
  | .hbm, ⟨53, _⟩ => ⟨S1x128, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S200000x128, .f32⟩
  | .hbm, ⟨58, _⟩ => ⟨S_, .f32⟩
  | .hbm, ⟨59, _⟩ => ⟨S50000x128, .f32⟩
  | .hbm, ⟨60, _⟩ => ⟨S200000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S400000, .i32⟩
  | .hbm, ⟨66, _⟩ => ⟨S400000, .i1⟩
  | .hbm, ⟨67, _⟩ => ⟨S_, .i32⟩
  | .hbm, ⟨68, _⟩ => ⟨S400000, .i32⟩
  | .hbm, ⟨69, _⟩ => ⟨S400000, .i32⟩
  | .hbm, ⟨70, _⟩ => ⟨S400000, .i32⟩
  | .hbm, ⟨71, _⟩ => ⟨S400000x1, .i32⟩
  | .hbm, ⟨72, _⟩ => ⟨S400000x128, .f32⟩
  | .hbm, ⟨73, _⟩ => ⟨S128x128, .f32⟩
  | .hbm, ⟨74, _⟩ => ⟨S400000x128, .f32⟩
  | .hbm, ⟨75, _⟩ => ⟨S1x128, .f32⟩
  | .hbm, ⟨76, _⟩ => ⟨S400000x128, .f32⟩
  | .hbm, ⟨77, _⟩ => ⟨S400000x128, .f32⟩
  | .hbm, ⟨78, _⟩ => ⟨S400000x128, .f32⟩
  | .hbm, ⟨79, _⟩ => ⟨S400000x128, .f32⟩
  | .hbm, ⟨80, _⟩ => ⟨S_, .f32⟩
  | .hbm, ⟨81, _⟩ => ⟨S25000x128, .f32⟩
  | .hbm, ⟨82, _⟩ => ⟨S400000x1, .i32⟩
  | .hbm, ⟨83, _⟩ => ⟨S25000x128, .f32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S128x128, .f32⟩
  | .hbm, ⟨94, _⟩ => ⟨S200000x128, .f32⟩
  | .hbm, ⟨95, _⟩ => ⟨S1x128, .f32⟩
  | .hbm, ⟨96, _⟩ => ⟨S200000x128, .f32⟩
  | .hbm, ⟨97, _⟩ => ⟨S200000x128, .f32⟩
  | .hbm, ⟨98, _⟩ => ⟨S200000x128, .f32⟩
  | .hbm, ⟨99, _⟩ => ⟨S200000x128, .f32⟩
  | .hbm, ⟨100, _⟩ => ⟨S_, .f32⟩
  | .hbm, ⟨101, _⟩ => ⟨S25000x128, .f32⟩
  | .hbm, ⟨102, _⟩ => ⟨S200000x1, .i32⟩
  | .hbm, ⟨103, _⟩ => ⟨S25000x128, .f32⟩
  | .hbm, ⟨104, _⟩ => ⟨S25000x128, .f32⟩
  | .hbm, ⟨105, _⟩ => ⟨S25000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_7 : Ref sig .tc := ⟨.hbm, 84, rfl⟩
abbrev main_v53 : Ref sig .tc := ⟨.hbm, 85, rfl⟩
abbrev main_v54 : Ref sig .tc := ⟨.hbm, 86, rfl⟩
abbrev main_c_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S1x128_S200000x128_0_1 : S1x128.BroadcastsInDim S200000x128 (![0, 1] : Fin 2 → Fin S200000x128.rank)
  bcast_S200000x1_S200000x128_0_1 : S200000x1.BroadcastsInDim S200000x128 (![0, 1] : Fin 2 → Fin S200000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S1x128_S400000x128_0_1 : S1x128.BroadcastsInDim S400000x128 (![0, 1] : Fin 2 → Fin S400000x128.rank)
  bcast_S400000x1_S400000x128_0_1 : S400000x1.BroadcastsInDim S400000x128 (![0, 1] : Fin 2 → Fin S400000x128.rank)
  bcast_S_S25000x128 : S_.BroadcastsInDim S25000x128 (![] : Fin 0 → Fin S25000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  gather_S25000x128_S200000x1_S200000x128_1_0_n_n_0_1_1128_wf : GatherDims.WF S25000x128 S200000x1 S200000x128 [1] [0] [] [0] [] 1 ![1, 128]
  dot_S200000x128_S128x128_S200000x128_1_0_0_1_n_n_wf : DotDims.WF S200000x128 S128x128 S200000x128 [1] [0] [0] [1] [] []
  scatter_S50000x128_S200000x1_S200000x128_1_0_0_1_wf : ScatterDims.WF S50000x128 S200000x1 S200000x128 [1] [0] [0] 1
  gather_S25000x128_S400000x1_S400000x128_1_0_n_n_0_1_1128_wf : GatherDims.WF S25000x128 S400000x1 S400000x128 [1] [0] [] [0] [] 1 ![1, 128]
  dot_S400000x128_S128x128_S400000x128_1_0_0_1_n_n_wf : DotDims.WF S400000x128 S128x128 S400000x128 [1] [0] [0] [1] [] []
  scatter_S25000x128_S400000x1_S400000x128_1_0_0_1_wf : ScatterDims.WF S25000x128 S400000x1 S400000x128 [1] [0] [0] 1
  gather_S50000x128_S200000x1_S200000x128_1_0_n_n_0_1_1128_wf : GatherDims.WF S50000x128 S200000x1 S200000x128 [1] [0] [] [0] [] 1 ![1, 128]
  scatter_S25000x128_S200000x1_S200000x128_1_0_0_1_wf : ScatterDims.WF S25000x128 S200000x1 S200000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S25000x128_S200000x1_S200000x128_1_0_n_n_0_1_1128 : GatherDims S25000x128 S200000x1 S200000x128 where
  offsetDims := [1]
  collapsedSliceDims := [0]
  operandBatchingDims := []
  startIndicesBatchingDims := []
  startIndexMap := [0]
  indexVectorDim := 1
  sliceSizes := ![1, 128]
  wf := gather_S25000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S25000x128_S200000x1_S200000x128_1_0_0_1 : ScatterDims S25000x128 S200000x1 S200000x128 where
  updateWindowDims := [1]
  insertedWindowDims := [0]
  scatterDimsToOperandDims := [0]
  indexVectorDim := 1
  wf := scatter_S25000x128_S200000x1_S200000x128_1_0_0_1_wf

class Facts : Prop extends Facts₀ where

variable [Facts]
-- ==== Proof.KernelRun.lean ====
/-
  The idealized kernel's run with its two results named.

  @main is four launches among three stretches of host operations. Its run ends with every buffer that outlives @main at
  the contents of the last segment boundary (`Gen.W7`): the launch memory carried through the first launch's
  write-backs, the first stretch, the second launch's write-backs, and so on to the fourth launch's write-backs. Read at
  the two result buffers this names what the program returns — the third launch's first output and the fourth launch's
  output — and read at an argument it walks back to the launch memory: no launch and no host operation writes an
  argument. The other modules open `Gen.W7` at the two results, one boundary at a time.
-/
import proofs.«151167_j1357209665997_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and every argument array as launched. -/
theorem run_named : θ_run defs (onTc (τ := τ) (main (F := F))) ⟨m, fun _ => 0, ρ⟩ (fun r => ∀ c : Dev nD,
      r.2.mem ((c.tc : Thread nD τ).loc main_v32_0) = W7 m ρ c (Proc.devRef .tc main_v32_0)
      ∧ r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v32_0 (by decide)),
       h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c)⟩)

end Cert.KernelIdeal.Named

end
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«151167_j1357209665997_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibRowAffine.lean ====
/-
  A row-wise affine map commutes with picking rows.

  For a matrix X of N rows and K columns, a weight W of C rows and K columns and a bias b of C entries, row r of X is
  sent to the row whose entry j is  ∑ₖ X(r,k) · W(j,k) + b(j)  (`affRow`). Two ways of computing meet here. One maps
  every row of X first — a block product of the rows with the transposed weight into a zero accumulator, plus the bias
  repeated down the rows (`blockAffine_apply`) — and then, for each edge e, picks the row the edge's index word names
  (`pickTable_apply`). The other picks the rows of X first and then maps them: a matrix product of the picked rows with
  the transposed weight, plus the bias (`hostAffine_apply`). At edge e and column j both read `affRow` of the row
  that the index word of e names, read signed and clamped into the table: the same sum, term by term
  (`pick_affine_eq`). No law of arithmetic is used, so nothing is asked of the entries: they may be infinite. A change
  of float format is the identity on the extended reals, so the narrowings around the block product do nothing.
-/
import Idealize.ShloMosaic.PureOps.Ideal.Laws
import Idealize.ShloMosaic.Lib.ValueIdx
import Idealize.ShloMosaic.Lib.ValueLayout
import Idealize.ShloMosaic.Lib.Pipeline.Value
import proofs.«151167_j1357209665997_2_alg».proof.Proof.LibSegmentOps
import proofs.«151167_j1357209665997_2_alg».proof.Proof.LibPlainMatmul
import proofs.«151167_j1357209665997_2_alg».proof.Proof.LibPlainDot
import proofs.«151167_j1357209665997_2_alg».proof.Proof.LibHostReads

noncomputable section

open scoped BigOperators

namespace Cert.RowAffine

open Idealize.ShloMosaic Idealize.ShloMosaic.ValueIdx

variable {N K C E M w : Nat}

/-- Entry j of the image of row r of X under the affine map with weight W and bias b. -/
def affRow (X : (⟨2, ![N, K]⟩ : Shape).Idx → EReal) (W : (⟨2, ![C, K]⟩ : Shape).Idx → EReal)
    (b : (⟨1, ![C]⟩ : Shape).Idx → EReal) (r : Fin N) (j : Fin C) : EReal :=
  (∑ k : Fin K, X (ix2 r k) * W (ix2 j k)) + b (ix1 j)

/-- A block of M rows mapped at once, read at row p and column q: the narrowed rows times the transposed narrowed
    weight into the zero accumulator, plus the bias laid as one row and repeated down the block, narrowed again. -/
theorem blockAffine_apply
    (hT : (⟨2, ![C, K]⟩ : Shape).Transposes [1, 0] ⟨2, ![K, C]⟩)
    (hs : (⟨1, ![C]⟩ : Shape).ShapeCasts ⟨2, ![1, C]⟩)
    (hb : (⟨2, ![1, C]⟩ : Shape).Broadcasts ⟨2, ![M, C]⟩)
    (h1 : FTy.bf16.bits < FTy.f32.bits)
    (x : FVec Ideal ⟨2, ![M, K]⟩ .f32) (W : FVec Ideal ⟨2, ![C, K]⟩ .f32) (b : FVec Ideal ⟨1, ![C]⟩ .f32)
    (p : Fin M) (q : Fin C) :
    (truncf .bf16 (addf (matmul (DotDims.plain M K C) none (truncf .bf16 x h1)
        (transpose ⟨2, ![K, C]⟩ [1, 0] (truncf .bf16 W h1) hT) (constant ⟨2, ![M, C]⟩ .f32 0x00000000#32))
        (broadcastTo ⟨2, ![M, C]⟩ (shapeCast ⟨2, ![1, C]⟩ b hs) hb)) h1 : FVec Ideal ⟨2, ![M, C]⟩ .bf16) (ix2 p q)
      = affRow x W b p q := by
  rw [truncf_apply, addf_apply, PlainMatmul.plainMatmul_apply, broadcastTo_1b_ab_apply, shapeCast_a_1a_apply]
  unfold affRow
  refine congrArg (· + b (ix1 q)) (Finset.sum_congr rfl fun k _ => ?_)
  rw [truncf_apply, transpose_ix2_apply, truncf_apply]

/-- The rows picked first and mapped afterwards, read at edge e and column j. -/
theorem hostAffine_apply (hN : 0 < N)
    (wfg : GatherDims.WF ⟨2, ![N, K]⟩ ⟨2, ![E, 1]⟩ ⟨2, ![E, K]⟩ [1] [0] [] [0] [] 1 ![1, K])
    (hT : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![E, C]⟩ ![0, 1])
    (X : FVec Ideal ⟨2, ![N, K]⟩ .f32) (W : FVec Ideal ⟨2, ![C, K]⟩ .f32) (b : FVec Ideal ⟨1, ![C]⟩ .f32)
    (I : IVec ⟨2, ![E, 1]⟩ w) (e : Fin E) (j : Fin C) :
    addf (Host.dotGeneral (DotDims.plain E K C) none (Host.gather (SegmentOps.rowDims2 N K E wfg) X I)
        (transpose ⟨2, ![K, C]⟩ [1, 0] W hT))
      (broadcastInDim ⟨2, ![E, C]⟩ ![0, 1] hb2 (broadcastInDim ⟨2, ![1, C]⟩ ![1] hb1 b)) (ix2 e j)
      = affRow X W b ⟨min (I (ix2 e 0)).toInt.toNat (N - 1), by omega⟩ j := by
  rw [addf_apply, PlainDot.plainDot_apply, HostReads.bcast_row_apply, HostReads.bcast_toRow_apply]
  unfold affRow
  refine congrArg (· + b (ix1 j)) (Finset.sum_congr rfl fun k _ => ?_)
  rw [SegmentOps.gather2_apply hN, HostReads.transpose2_apply]

/-- A row picked out of a table of mapped rows and widened, read at edge e and column j: the table's entry at the
    picked row. -/
theorem pickTable_apply (hN : 0 < N)
    (wfg : GatherDims.WF ⟨2, ![N, C]⟩ ⟨2, ![E, 1]⟩ ⟨2, ![E, C]⟩ [1] [0] [] [0] [] 1 ![1, C])
    (h1 : FTy.bf16.bits < FTy.f32.bits)
    (T : FVec Ideal ⟨2, ![N, C]⟩ .bf16) (I : IVec ⟨2, ![E, 1]⟩ w) (e : Fin E) (j : Fin C) :
    (extf .f32 (Host.gather (SegmentOps.rowDims2 N C E wfg) T I) h1 : FVec Ideal ⟨2, ![E, C]⟩ .f32) (ix2 e j)
      = T (ix2 ⟨min (I (ix2 e 0)).toInt.toNat (N - 1), by omega⟩ j) := by
  rw [extf_apply, SegmentOps.gather2_apply hN]

/-- MAP THEN PICK IS PICK THEN MAP: when the table T holds the image of every row of X, the rows picked out of T are the
    images of the rows picked out of X — as whole arrays, whatever the index words are. -/
theorem pick_affine_eq (hN : 0 < N)
    (wfT : GatherDims.WF ⟨2, ![N, C]⟩ ⟨2, ![E, 1]⟩ ⟨2, ![E, C]⟩ [1] [0] [] [0] [] 1 ![1, C])
    (wfX : GatherDims.WF ⟨2, ![N, K]⟩ ⟨2, ![E, 1]⟩ ⟨2, ![E, K]⟩ [1] [0] [] [0] [] 1 ![1, K])
    (hT : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![E, C]⟩ ![0, 1])
    (h1 : FTy.bf16.bits < FTy.f32.bits)
    (X : FVec Ideal ⟨2, ![N, K]⟩ .f32) (W : FVec Ideal ⟨2, ![C, K]⟩ .f32) (b : FVec Ideal ⟨1, ![C]⟩ .f32)
    (T : FVec Ideal ⟨2, ![N, C]⟩ .bf16) (hTab : ∀ (r : Fin N) (j : Fin C), T (ix2 r j) = affRow X W b r j)
    (I : IVec ⟨2, ![E, 1]⟩ w) :
    (extf .f32 (Host.gather (SegmentOps.rowDims2 N C E wfT) T I) h1 : FVec Ideal ⟨2, ![E, C]⟩ .f32)
      = addf (Host.dotGeneral (DotDims.plain E K C) none (Host.gather (SegmentOps.rowDims2 N K E wfX) X I)
          (transpose ⟨2, ![K, C]⟩ [1, 0] W hT))
        (broadcastInDim ⟨2, ![E, C]⟩ ![0, 1] hb2 (broadcastInDim ⟨2, ![1, C]⟩ ![1] hb1 b)) := by
  funext i
  obtain ⟨e, j, rfl⟩ : ∃ (e : Fin E) (j : Fin C), i = ix2 e j := ⟨i 0, i 1, eq_ix2 i⟩
  rw [pickTable_apply hN, hostAffine_apply hN, hTab]

/-- The table of images: entry (r, j) is entry j of the image of row r. -/
def affTab (X : (⟨2, ![N, K]⟩ : Shape).Idx → EReal) (W : (⟨2, ![C, K]⟩ : Shape).Idx → EReal)
    (b : (⟨1, ![C]⟩ : Shape).Idx → EReal) : (⟨2, ![N, C]⟩ : Shape).Idx → EReal :=
  fun i => affRow X W b (i 0) (i 1)

theorem affTab_apply (X : (⟨2, ![N, K]⟩ : Shape).Idx → EReal) (W : (⟨2, ![C, K]⟩ : Shape).Idx → EReal)
    (b : (⟨1, ![C]⟩ : Shape).Idx → EReal) (r : Fin N) (j : Fin C) : affTab X W b (ix2 r j) = affRow X W b r j := rfl

/-- An image entry depends only on the row of X, the row of W and the entry of b it is built from: the same three, read
    out of other arrays at other places, give the same entry. -/
theorem affRow_congr {N' C' : Nat}
    (X : (⟨2, ![N, K]⟩ : Shape).Idx → EReal) (W : (⟨2, ![C, K]⟩ : Shape).Idx → EReal) (b : (⟨1, ![C]⟩ : Shape).Idx → EReal)
    (X' : (⟨2, ![N', K]⟩ : Shape).Idx → EReal) (W' : (⟨2, ![C', K]⟩ : Shape).Idx → EReal)
    (b' : (⟨1, ![C']⟩ : Shape).Idx → EReal) (r : Fin N) (j : Fin C) (r' : Fin N') (j' : Fin C')
    (hX : ∀ k : Fin K, X (ix2 r k) = X' (ix2 r' k)) (hW : ∀ k : Fin K, W (ix2 j k) = W' (ix2 j' k))
    (hb : b (ix1 j) = b' (ix1 j')) : affRow X W b r j = affRow X' W' b' r' j' := by
  unfold affRow
  rw [hb]
  exact congrArg (· + b' (ix1 j')) (Finset.sum_congr rfl fun k _ => by rw [hX k, hW k])

/-- The hyperbolic tangent of a product, entry by entry. -/
def tanhMul {s : Shape} (a b : s.Idx → EReal) : s.Idx → EReal := fun i => Ideal.tanh (a i * b i)

/-- The host's tanh of a product of arrays and a kernel's tanh of a product of vectors are both that: on the extended
    reals the two tanh are one function. -/
theorem hostTanh_mulf {s : Shape} {φ : FTy} (a b : FVec Ideal s φ) : Host.tanh (mulf a b) = tanhMul a b := rfl
theorem tanh_mulf {s : Shape} {φ : FTy} (a b : FVec Ideal s φ) : tanh (mulf a b) = tanhMul a b := rfl

end Cert.RowAffine

end
-- ==== Proof.Blocks0.lean ====
/-
  The first launch, block by block and then as one array.

  The launch walks five blocks of 10000 rows down an array X of 50000 rows and 128 columns; the weight W (128 × 128) and
  the bias b (128) are each one block that never moves. At point t the body narrows block t of X and the weight,
  multiplies the rows by the transposed weight into a zero accumulator, adds the bias down the rows, narrows the sum, and
  stores it; it is written back as block t of the output. On the extended reals the narrowings do nothing, so entry (p, q)
  of the stored block is  ∑ₖ x(p,k) · W(q,k) + b(q)  of the loaded block x. The output window sits at block index (t, 0)
  like X's, so that entry lands at row 10000 t + p, which is where x(p, ·) came from: the output array ends holding the
  table of images of X's rows (`affTab`), whatever the contents `V` of the buffers on entry; the five blocks tile the
  rows (row r lies in block r / 10000).
-/
import proofs.«151167_j1357209665997_2_alg».proof.Proof.Gen.KernelIdeal.Frame
import proofs.«151167_j1357209665997_2_alg».proof.Proof.LibRowAffine
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.RowAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's value at entry (j 0, j 1) of the block: that entry of the image of row j 0 of the loaded rows. -/
theorem body_at (x0 : Vec Ideal S10000x128 .f32) (x1 : Vec Ideal S128x128 .f32) (x2 : Vec Ideal S128 .f32)
    (j : S10000x128.Idx) : k0_pay1 x0 x1 x2 j = affRow x0 x1 x2 (j 0) (j 1) := by
  obtain ⟨p, q, rfl⟩ : ∃ (p : Fin 10000) (q : Fin 128), j = ix2 p q := ⟨j 0, j 1, eq_ix2 j⟩
  unfold k0_pay1
  exact blockAffine_apply (M := 10000) (K := 128) (C := 128) _ _ _ _ x0 x1 x2 p q

/-- The rows' window and the output's sit at block (t, 0) with t below 5; the weight's and the bias's at block 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 4 ∧ win0_3.index t (1 : Fin 2) = 0 :=
  (by decide +kernel : ∀ t : Fin grid0.N, _)

/-- Every block of rows is some point's. -/
theorem index_onto : ∀ q : Fin 5, ∃ t : Fin cfg0.N, win0_3.index t = ![q.val, 0] :=
  (by decide +kernel : ∀ q : Fin 5, ∃ t : Fin grid0.N, win0_3.index t = ![q.val, 0])

/-- What point t writes back is block t of the table of images of X's rows, of the arrays as entered. -/
theorem flushed_eq (c : Dev nD) (t : Fin cfg0.N) :
    (dat0 V c).flushed 3 t
      = ((cfg0.win 3).blk t).view.read (Elt Ideal) (affTab (V c main_arg0) (V c main_arg2) (V c main_arg3)) := by
  show (cfg0.win 3).cut (grid0.coords t) ((dat0 V c).after 3 t) = _
  rw [after0_3]
  unfold out0_3
  rw [View.canon_unit_zero zero_off2]
  simp only [View.ld_unit_zero (S := S10000x128) zero_off2, View.ld_unit_zero (S := S128x128) zero_off2,
    View.ld_unit_zero (S := S128) zero_off1]
  obtain ⟨e0, e1, e2, e3, e4, -, e6⟩ := index_facts t
  funext j
  refine (body_at (iblk0 V c 0 t) (iblk0 V c 1 t) (iblk0 V c 2 t) j).trans ?_
  have hX : ∀ k : Fin 128, ((cfg0.win 0).blk t).view.emb (ix2 (j 0) k) = ix2 ((((cfg0.win 3).blk t).view.emb j) 0) k := by
    intro k; funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hW : ∀ k : Fin 128, ((cfg0.win 1).blk t).view.emb (ix2 (j 1) k) = ix2 ((((cfg0.win 3).blk t).view.emb j) 1) k := by
    intro k; funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * k.val = k.val; omega
  have hb : ((cfg0.win 2).blk t).view.emb (ix1 (j 1)) = ix1 ((((cfg0.win 3).blk t).view.emb j) 1) := by
    funext a; apply Fin.ext
    match a with
    | ⟨0, _⟩ => show win0_2.index t (0 : Fin 1) * 128 + 1 * (j 1).val = win0_3.index t (1 : Fin 2) * 128 + 1 * (j 1).val; omega
  refine affRow_congr _ _ _ _ _ _ _ _ _ _ (fun k => ?_) (fun k => ?_) ?_
  · show V c main_arg0 (((cfg0.win 0).blk t).view.emb (ix2 (j 0) k)) = _
    rw [hX k]
    rfl
  · show V c main_arg2 (((cfg0.win 1).blk t).view.emb (ix2 (j 1) k)) = _
    rw [hW k]
    rfl
  · show V c main_arg3 (((cfg0.win 2).blk t).view.emb (ix1 (j 1))) = _
    rw [hb]
    rfl

/-- An index of the array is in point t's block exactly when each coordinate is in the block's range on its axis. -/
theorem mem_block (t : Fin cfg0.N) (i : S50000x128.Idx) :
    i ∈ ((cfg0.win 3).blk t).view.set
      ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- The five blocks cover the array: row r is in block r / 10000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE OUTPUT ARRAY after the launch: the table of images of X's rows under the weight and the bias, as entered. -/
theorem final (c : Dev nD) :
    (dat0 V c).arrAt 3 cfg0.N = affTab (V c main_arg0) (V c main_arg2) (V c main_arg3) :=
  (dat0 V c).arrAt_eq_of_cover 3 _ (fun t _ => flushed_eq V c t) covered

end Cert.KernelIdeal.Blocks0

end
-- ==== Proof.Blocks1.lean ====
/-
  The second launch, block by block and then as one array.

  The launch walks five blocks of 5000 rows down an array X of 25000 rows and 128 columns; the weight W (256 × 128) and
  the bias b (256) are each one block that never moves. Its body is the first launch's with 256 output columns: narrow
  the rows and the weight, multiply by the transposed weight into a zero accumulator, add the bias down the rows, narrow,
  store (the shape casts around the weight and the bias change no shape). So entry (p, q) of the stored block is
  ∑ₖ x(p,k) · W(q,k) + b(q), it lands at row 5000 t + p of the output, and the output array ends holding the table of
  images of X's rows under the 256-row weight, whatever the contents `V` of the buffers on entry; the five blocks tile
  the rows (row r lies in block r / 5000).
-/
import proofs.«151167_j1357209665997_2_alg».proof.Proof.Gen.KernelIdeal.Frame
import proofs.«151167_j1357209665997_2_alg».proof.Proof.LibRowAffine
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.RowAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's value at entry (j 0, j 1) of the block: that entry of the image of row j 0 of the loaded rows. -/
theorem body_at (x0 : Vec Ideal S5000x128 .f32) (x1 : Vec Ideal S256x128 .f32) (x2 : Vec Ideal S256 .f32)
    (j : S5000x256.Idx) : k1_pay1 x0 x1 x2 j = affRow x0 x1 x2 (j 0) (j 1) := by
  obtain ⟨p, q, rfl⟩ : ∃ (p : Fin 5000) (q : Fin 256), j = ix2 p q := ⟨j 0, j 1, eq_ix2 j⟩
  unfold k1_pay1
  simp only [shapeCast_self]
  exact blockAffine_apply (M := 5000) (K := 128) (C := 256) _ _ _ _ x0 x1 x2 p q

/-- The rows' window and the output's sit at block (t, 0) with t below 5; the weight's and the bias's at block 0. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) ≤ 4 ∧ win1_3.index t (1 : Fin 2) = 0 :=
  (by decide +kernel : ∀ t : Fin grid1.N, _)

/-- Every block of rows is some point's. -/
theorem index_onto : ∀ q : Fin 5, ∃ t : Fin cfg1.N, win1_3.index t = ![q.val, 0] :=
  (by decide +kernel : ∀ q : Fin 5, ∃ t : Fin grid1.N, win1_3.index t = ![q.val, 0])

/-- What point t writes back is block t of the table of images of X's rows, of the arrays as entered. -/
theorem flushed_eq (c : Dev nD) (t : Fin cfg1.N) :
    (dat1 V c).flushed 3 t
      = ((cfg1.win 3).blk t).view.read (Elt Ideal) (affTab (V c main_arg1) (V c main_v1) (V c main_v2)) := by
  show (cfg1.win 3).cut (grid1.coords t) ((dat1 V c).after 3 t) = _
  rw [after1_3]
  unfold out1_3
  rw [View.canon_unit_zero zero_off2]
  simp only [View.ld_unit_zero (S := S5000x128) zero_off2, View.ld_unit_zero (S := S256x128) zero_off2,
    View.ld_unit_zero (S := S256) zero_off1]
  obtain ⟨e0, e1, e2, e3, e4, -, e6⟩ := index_facts t
  funext j
  refine (body_at (iblk1 V c 0 t) (iblk1 V c 1 t) (iblk1 V c 2 t) j).trans ?_
  have hX : ∀ k : Fin 128, ((cfg1.win 0).blk t).view.emb (ix2 (j 0) k) = ix2 ((((cfg1.win 3).blk t).view.emb j) 0) k := by
    intro k; funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have hW : ∀ k : Fin 128, ((cfg1.win 1).blk t).view.emb (ix2 (j 1) k) = ix2 ((((cfg1.win 3).blk t).view.emb j) 1) k := by
    intro k; funext a; apply Fin.ext
    match a with
    | ⟨0, _⟩ => show win1_1.index t (0 : Fin 2) * 256 + 1 * (j 1).val = win1_3.index t (1 : Fin 2) * 256 + 1 * (j 1).val; omega
    | ⟨1, _⟩ => show win1_1.index t (1 : Fin 2) * 128 + 1 * k.val = k.val; omega
  have hb : ((cfg1.win 2).blk t).view.emb (ix1 (j 1)) = ix1 ((((cfg1.win 3).blk t).view.emb j) 1) := by
    funext a; apply Fin.ext
    match a with
    | ⟨0, _⟩ => show win1_2.index t (0 : Fin 1) * 256 + 1 * (j 1).val = win1_3.index t (1 : Fin 2) * 256 + 1 * (j 1).val; omega
  refine affRow_congr _ _ _ _ _ _ _ _ _ _ (fun k => ?_) (fun k => ?_) ?_
  · show V c main_arg1 (((cfg1.win 0).blk t).view.emb (ix2 (j 0) k)) = _
    rw [hX k]
    rfl
  · show V c main_v1 (((cfg1.win 1).blk t).view.emb (ix2 (j 1) k)) = _
    rw [hW k]
    rfl
  · show V c main_v2 (((cfg1.win 2).blk t).view.emb (ix1 (j 1))) = _
    rw [hb]
    rfl

/-- An index of the array is in point t's block exactly when each coordinate is in the block's range on its axis. -/
theorem mem_block (t : Fin cfg1.N) (i : S25000x256.Idx) :
    i ∈ ((cfg1.win 3).blk t).view.set
      ↔ ∀ a : Fin 2, win1_3.index t a * S5000x256.size a ≤ (i a).val ∧ (i a).val < win1_3.index t a * S5000x256.size a + S5000x256.size a := by
  show i ∈ ((View.whole main_v3).slice (win1_3.rect t)).set ↔ _
  rw [View.set_slice_whole, Rect.mem_set_unit]
  exact Iff.rfl

/-- The five blocks cover the array: row r is in block r / 5000. -/
theorem covered (i : S25000x256.Idx) :
    ∃ t : Fin cfg1.N, (cfg1.win 3).flush t = true ∧ i ∈ ((cfg1.win 3).blk t).view.set := by
  have hi0 : (i 0).val < 25000 := (i 0).isLt
  have hi1 : (i 1).val < 256 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- THE OUTPUT ARRAY after the launch: the table of images of X's rows under the 256-row weight and bias, as entered. -/
theorem final (c : Dev nD) :
    (dat1 V c).arrAt 3 cfg1.N = affTab (V c main_arg1) (V c main_v1) (V c main_v2) :=
  (dat1 V c).arrAt_eq_of_cover 3 _ (fun t _ => flushed_eq V c t) covered

end Cert.KernelIdeal.Blocks1

end
-- ==== Proof.Blocks2.lean ====
/-
  The third launch, block by block and then as two arrays.

  The launch walks ten blocks of 5000 rows down two arrays A and B of 50000 rows and 128 columns; the weight W (128 × 128)
  and the bias b (128) are each one block that never moves. At point t the body loads block t of A and of B, multiplies
  them entry by entry and takes the hyperbolic tangent: that block, u, is stored to the first output. Then it narrows u
  and the weight, multiplies the rows of u by the transposed weight into a zero accumulator, adds the bias down the rows,
  narrows, and stores the sum to the second output. Both outputs sit at block index (t, 0) like A and B. So the first
  output array ends holding tanh (A · B), entry by entry, and the second the table of images of the rows of tanh (A · B)
  under the weight and the bias — entry (p, q) of the second block is ∑ₖ u(p,k) · W(q,k) + b(q), and u(p, k) is the entry
  of tanh (A · B) at row 5000 t + p. Both hold whatever the contents `V` of the buffers on entry; the ten blocks tile
  the rows (row r lies in block r / 5000).
-/
import proofs.«151167_j1357209665997_2_alg».proof.Proof.Gen.KernelIdeal.Frame
import proofs.«151167_j1357209665997_2_alg».proof.Proof.LibRowAffine
import Idealize.ShloMosaic.Lib.Pipeline.Value
import Idealize.ShloMosaic.Lib.ValueIdx

set_option maxRecDepth 16384

noncomputable section

namespace Cert.KernelIdeal.Blocks2

open Cert.KernelIdeal Cert.KernelIdeal.Gen Cert.RowAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The first stored value: tanh of the product of the two loaded blocks (the casts around them change no shape). -/
theorem first_eq (x0 x1 : Vec Ideal S5000x128 .f32) : k2_pay1 x0 x1 = tanhMul x0 x1 := by
  unfold k2_pay1
  simp only [shapeCast_self]
  rfl

/-- The second stored value at entry (j 0, j 1): that entry of the image of row j 0 of the first stored value. -/
theorem second_at (x0 x1 : Vec Ideal S5000x128 .f32) (x2 : Vec Ideal S128x128 .f32) (x3 : Vec Ideal S128 .f32)
    (j : S5000x128.Idx) : k2_pay2 x0 x1 x2 x3 j = affRow (tanhMul x0 x1) x2 x3 (j 0) (j 1) := by
  obtain ⟨p, q, rfl⟩ : ∃ (p : Fin 5000) (q : Fin 128), j = ix2 p q := ⟨j 0, j 1, eq_ix2 j⟩
  unfold k2_pay2
  rw [first_eq]
  exact blockAffine_apply (M := 5000) (K := 128) (C := 128) _ _ _ _ (tanhMul x0 x1) x2 x3 p q

/-- The two inputs' windows and the two outputs' sit at block (t, 0) with t below 10; the weight's and the bias's at
    block 0. -/
theorem index_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 1) = 0
    ∧ win2_4.index t (0 : Fin 2) ≤ 9 ∧ win2_4.index t (1 : Fin 2) = 0
    ∧ win2_5.index t (0 : Fin 2) = win2_4.index t (0 : Fin 2) ∧ win2_5.index t (1 : Fin 2) = 0 :=
  (by decide +kernel : ∀ t : Fin grid2.N, _)

/-- Every block of rows is some point's, for each output. -/
theorem index_onto4 : ∀ q : Fin 10, ∃ t : Fin cfg2.N, win2_4.index t = ![q.val, 0] :=
  (by decide +kernel : ∀ q : Fin 10, ∃ t : Fin grid2.N, win2_4.index t = ![q.val, 0])
theorem index_onto5 : ∀ q : Fin 10, ∃ t : Fin cfg2.N, win2_5.index t = ![q.val, 0] :=
  (by decide +kernel : ∀ q : Fin 10, ∃ t : Fin grid2.N, win2_5.index t = ![q.val, 0])

/-! ## The first output -/

/-- What point t writes back to the first output is block t of tanh (A · B) of the two arrays as entered. -/
theorem flushed4_eq (c : Dev nD) (t : Fin cfg2.N) :
    (dat2 V c).flushed 4 t
      = ((cfg2.win 4).blk t).view.read (Elt Ideal) (tanhMul (V c main_v31) (V c main_v18)) := by
  show (cfg2.win 4).cut (grid2.coords t) ((dat2 V c).after 4 t) = _
  rw [after2_4]
  unfold out2_4
  rw [View.canon_unit_zero zero_off2]
  simp only [View.ld_unit_zero (S := S5000x128) zero_off2]
  rw [first_eq]
  obtain ⟨e0, e1, e2, e3, -, -, -, -, e8, -, -⟩ := index_facts t
  funext j
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * (j 1).val = win2_4.index t (1 : Fin 2) * 128 + 1 * (j 1).val; omega
  have r0 : iblk2 V c 0 t j = V c main_v31 (((cfg2.win 4).blk t).view.emb j) := by
    show V c main_v31 (((cfg2.win 0).blk t).view.emb j) = _
    rw [h0]
  have r1 : iblk2 V c 1 t j = V c main_v18 (((cfg2.win 4).blk t).view.emb j) := by
    show V c main_v18 (((cfg2.win 1).blk t).view.emb j) = _
    rw [h1]
  exact congrArg₂ (fun x y : EReal => Ideal.tanh (x * y)) r0 r1

theorem mem_block4 (t : Fin cfg2.N) (i : S50000x128.Idx) :
    i ∈ ((cfg2.win 4).blk t).view.set
      ↔ ∀ a : Fin 2, win2_4.index t a * S5000x128.size a ≤ (i a).val ∧ (i a).val < win2_4.index t a * S5000x128.size a + S5000x128.size a := by
  show i ∈ ((View.whole main_v32_0).slice (win2_4.rect t)).set ↔ _
  rw [View.set_slice_whole, Rect.mem_set_unit]
  exact Iff.rfl

theorem covered4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := index_onto4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE FIRST OUTPUT ARRAY after the launch: tanh (A · B) of the two arrays as entered. -/
theorem final4 (c : Dev nD) : (dat2 V c).arrAt 4 cfg2.N = tanhMul (V c main_v31) (V c main_v18) :=
  (dat2 V c).arrAt_eq_of_cover 4 _ (fun t _ => flushed4_eq V c t) covered4

/-! ## The second output -/

/-- What point t writes back to the second output is block t of the table of images of the rows of tanh (A · B). -/
theorem flushed5_eq (c : Dev nD) (t : Fin cfg2.N) :
    (dat2 V c).flushed 5 t
      = ((cfg2.win 5).blk t).view.read (Elt Ideal)
          (affTab (tanhMul (V c main_v31) (V c main_v18)) (V c main_arg8) (V c main_arg9)) := by
  show (cfg2.win 5).cut (grid2.coords t) ((dat2 V c).after 5 t) = _
  rw [after2_5]
  unfold out2_5
  rw [View.canon_unit_zero zero_off2]
  simp only [View.ld_unit_zero (S := S5000x128) zero_off2, View.ld_unit_zero (S := S128x128) zero_off2,
    View.ld_unit_zero (S := S128) zero_off1]
  obtain ⟨e0, e1, e2, e3, e4, e5, e6, -, e8, e9, e10⟩ := index_facts t
  funext j
  refine (second_at (iblk2 V c 0 t) (iblk2 V c 1 t) (iblk2 V c 2 t) (iblk2 V c 3 t) j).trans ?_
  have hA : ∀ k : Fin 128, ((cfg2.win 0).blk t).view.emb (ix2 (j 0) k) = ix2 ((((cfg2.win 5).blk t).view.emb j) 0) k := by
    intro k; funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have hB : ∀ k : Fin 128, ((cfg2.win 1).blk t).view.emb (ix2 (j 0) k) = ix2 ((((cfg2.win 5).blk t).view.emb j) 0) k := by
    intro k; funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  have hW : ∀ k : Fin 128, ((cfg2.win 2).blk t).view.emb (ix2 (j 1) k) = ix2 ((((cfg2.win 5).blk t).view.emb j) 1) k := by
    intro k; funext a; apply Fin.ext
    match a with
    | ⟨0, _⟩ => show win2_2.index t (0 : Fin 2) * 128 + 1 * (j 1).val = win2_5.index t (1 : Fin 2) * 128 + 1 * (j 1).val; omega
    | ⟨1, _⟩ => show win2_2.index t (1 : Fin 2) * 128 + 1 * k.val = k.val; omega
  have hb : ((cfg2.win 3).blk t).view.emb (ix1 (j 1)) = ix1 ((((cfg2.win 5).blk t).view.emb j) 1) := by
    funext a; apply Fin.ext
    match a with
    | ⟨0, _⟩ => show win2_3.index t (0 : Fin 1) * 128 + 1 * (j 1).val = win2_5.index t (1 : Fin 2) * 128 + 1 * (j 1).val; omega
  refine affRow_congr _ _ _ _ _ _ _ _ _ _ (fun k => ?_) (fun k => ?_) ?_
  · have rA : iblk2 V c 0 t (ix2 (j 0) k) = V c main_v31 (ix2 ((((cfg2.win 5).blk t).view.emb j) 0) k) :=
      congrArg (V c main_v31) (hA k)
    have rB : iblk2 V c 1 t (ix2 (j 0) k) = V c main_v18 (ix2 ((((cfg2.win 5).blk t).view.emb j) 0) k) :=
      congrArg (V c main_v18) (hB k)
    exact congrArg₂ (fun x y : EReal => Ideal.tanh (x * y)) rA rB
  · exact congrArg (V c main_arg8) (hW k)
  · exact congrArg (V c main_arg9) hb

theorem mem_block5 (t : Fin cfg2.N) (i : S50000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v32_1).slice (win2_5.rect t)).set ↔ _
  rw [View.set_slice_whole, Rect.mem_set_unit]
  exact Iff.rfl

theorem covered5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := index_onto5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE SECOND OUTPUT ARRAY after the launch: the table of images of the rows of tanh (A · B), as entered. -/
theorem final5 (c : Dev nD) :
    (dat2 V c).arrAt 5 cfg2.N = affTab (tanhMul (V c main_v31) (V c main_v18)) (V c main_arg8) (V c main_arg9) :=
  (dat2 V c).arrAt_eq_of_cover 5 _ (fun t _ => flushed5_eq V c t) covered5

end Cert.KernelIdeal.Blocks2

end
-- ==== Proof.Blocks3.lean ====
/-
  The fourth launch, block by block and then as one array.

  The launch walks five blocks of 5000 rows down two arrays of 25000 rows and 128 columns. At point t its body loads
  block t of each, multiplies them entry by entry, takes the hyperbolic tangent, and stores the result, which is written
  back as block t of the output array. Each of the three windows sits at block index (t, 0), so an entry of the output
  block depends on the entries of the two input blocks at the same place in the array; the five blocks tile the rows
  (row r lies in block r / 5000). Hence the output array ends holding tanh (a · b), entry by entry, of the two arrays as
  the launch finds them — whatever those are: the statement is at any contents `V` of the buffers on entry.
-/
import proofs.«151167_j1357209665997_2_alg».proof.Proof.Gen.KernelIdeal.Frame
import proofs.«151167_j1357209665997_2_alg».proof.Proof.LibRowAffine
import Idealize.ShloMosaic.Lib.Pipeline.Value
import Idealize.ShloMosaic.Lib.ValueIdx

set_option maxRecDepth 16384

noncomputable section

namespace Cert.KernelIdeal.Blocks3

open Cert.KernelIdeal Cert.KernelIdeal.Gen Cert.RowAffine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The body's value: tanh of the product of its two loaded blocks (the casts around them change no shape). -/
theorem body_eq (x0 x1 : Vec Ideal S5000x128 .f32) : k3_pay1 x0 x1 = tanhMul x0 x1 := by
  unfold k3_pay1
  simp only [shapeCast_self]
  rfl

/-- The three index maps agree at every point, and the output's block index is (t, 0) with t below 5. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 4 ∧ win3_2.index t (1 : Fin 2) = 0 :=
  (by decide +kernel : ∀ t : Fin grid3.N, _)

/-- Every block of rows is some point's. -/
theorem index_onto : ∀ q : Fin 5, ∃ t : Fin cfg3.N, win3_2.index t = ![q.val, 0] :=
  (by decide +kernel : ∀ q : Fin 5, ∃ t : Fin grid3.N, win3_2.index t = ![q.val, 0])

/-- What point t writes back is block t of tanh (a · b) of the two arrays as entered. -/
theorem flushed_eq (c : Dev nD) (t : Fin cfg3.N) :
    (dat3 V c).flushed 2 t
      = ((cfg3.win 2).blk t).view.read (Elt Ideal) (tanhMul (V c main_v58) (V c main_v45)) := by
  show (cfg3.win 2).cut (grid3.coords t) ((dat3 V c).after 2 t) = _
  rw [after3_2]
  unfold out3_2
  rw [View.canon_unit_zero zero_off]
  simp only [View.ld_unit_zero (S := S5000x128) zero_off]
  rw [body_eq]
  obtain ⟨e0, e1, e2, e3, -, -⟩ := index_facts t
  funext j
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  have r0 : iblk3 V c 0 t j = V c main_v58 (((cfg3.win 2).blk t).view.emb j) := by
    show V c main_v58 (((cfg3.win 0).blk t).view.emb j) = _
    rw [h0]
  have r1 : iblk3 V c 1 t j = V c main_v45 (((cfg3.win 2).blk t).view.emb j) := by
    show V c main_v45 (((cfg3.win 1).blk t).view.emb j) = _
    rw [h1]
  exact congrArg₂ (fun x y : EReal => Ideal.tanh (x * y)) r0 r1

/-- An index of the array is in point t's block exactly when each coordinate is in the block's range on its axis. -/
theorem mem_block (t : Fin cfg3.N) (i : S25000x128.Idx) :
    i ∈ ((cfg3.win 2).blk t).view.set
      ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- The five blocks cover the array: row r is in block r / 5000. -/
theorem covered (i : S25000x128.Idx) :
    ∃ t : Fin cfg3.N, (cfg3.win 2).flush t = true ∧ i ∈ ((cfg3.win 2).blk t).view.set := by
  have hi0 : (i 0).val < 25000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the launch: tanh (a · b) of the two arrays as entered. -/
theorem final (c : Dev nD) : (dat3 V c).arrAt 2 cfg3.N = tanhMul (V c main_v58) (V c main_v45) :=
  (dat3 V c).arrAt_eq_of_cover 2 _ (fun t _ => flushed_eq V c t) (covered)

end Cert.KernelIdeal.Blocks3

end
-- ==== Proof.LibEdgeChain.lean ====
/-
  The message-passing chain both programs share, named piece by piece.

  Each of the four message paths does the same thing to an array of per-edge rows: scale row e by the edge's weight
  (the weights are a column, repeated across the row) and add the scaled rows up at the receivers, starting from zeros
  (`edgeSum`). The rows come from picking, for each edge, a row of a table by the sender's index word, a negative word
  counted from the end of the table (`wrapCol`: n is added to a word below zero, and the words are laid as a column).
  The two programs differ only in WHERE the affine map is applied: the kernel picks rows out of a table of already mapped
  rows and widens them (`tableRows`); the reference picks rows out of the raw array and then maps them — a matrix
  product with the transposed weight plus the bias repeated down the rows (`hostRows`). When the table holds the image of
  every row of the raw array these are the same rows (`rows_eq`: picking commutes with a row-wise map), so the two paths'
  sums are the same array — the scaling and the summation are applied to equal arguments and are never opened.
-/
import Idealize.ShloMosaic.PureOps.Ideal.Laws
import Idealize.ShloMosaic.Lib.ValueIdx
import proofs.«151167_j1357209665997_2_alg».proof.Proof.LibRowAffine

noncomputable section

namespace Cert.Chain

open Idealize.ShloMosaic Idealize.ShloMosaic.ValueIdx Cert.RowAffine

variable {N K C E : Nat}

/-- The senders' index words, a word below zero counted from the end (n added to it), laid as a column. -/
def wrapCol (hz : (⟨0, ![]⟩ : Shape).BroadcastsInDim ⟨1, ![E]⟩ ![])
    (hc : (⟨1, ![E]⟩ : Shape).BroadcastsInDim ⟨2, ![E, 1]⟩ ![0]) (n : BitVec 32) (s : IVec ⟨1, ![E]⟩ 32) :
    IVec ⟨2, ![E, 1]⟩ 32 :=
  broadcastInDim ⟨2, ![E, 1]⟩ ![0] hc
    (select (cmpi .slt s (broadcastInDim ⟨1, ![E]⟩ ![] hz (constantI ⟨0, ![]⟩ 32 0#32)))
      (addi s (broadcastInDim ⟨1, ![E]⟩ ![] hz (constantI ⟨0, ![]⟩ 32 n))) s)

/-- The per-edge rows scaled by the edges' weights and summed at the receivers, from zeros. -/
def edgeSum (sc : ScatterDims ⟨2, ![N, C]⟩ ⟨2, ![E, 1]⟩ ⟨2, ![E, C]⟩)
    (hz : (⟨0, ![]⟩ : Shape).BroadcastsInDim ⟨2, ![N, C]⟩ ![])
    (hc : (⟨1, ![E]⟩ : Shape).BroadcastsInDim ⟨2, ![E, 1]⟩ ![0])
    (hw : (⟨2, ![E, 1]⟩ : Shape).BroadcastsInDim ⟨2, ![E, C]⟩ ![0, 1])
    (recv : IVec ⟨1, ![E]⟩ 32) (conv : FVec Ideal ⟨2, ![E, 1]⟩ .f32) (rows : FVec Ideal ⟨2, ![E, C]⟩ .f32) :
    FVec Ideal ⟨2, ![N, C]⟩ .f32 :=
  Host.scatterAdd sc (broadcastInDim ⟨2, ![N, C]⟩ ![] hz (constant ⟨0, ![]⟩ .f32 0x00000000#32))
    (broadcastInDim ⟨2, ![E, 1]⟩ ![0] hc recv) (mulf (broadcastInDim ⟨2, ![E, C]⟩ ![0, 1] hw conv) rows)

/-- Rows picked out of a table of already mapped rows, widened. -/
def tableRows (gd : GatherDims ⟨2, ![N, C]⟩ ⟨2, ![E, 1]⟩ ⟨2, ![E, C]⟩) (h1 : FTy.bf16.bits < FTy.f32.bits)
    (T : FVec Ideal ⟨2, ![N, C]⟩ .bf16) (I : IVec ⟨2, ![E, 1]⟩ 32) : FVec Ideal ⟨2, ![E, C]⟩ .f32 :=
  extf .f32 (Host.gather gd T I) h1

/-- Rows picked out of the raw array and then mapped: times the transposed weight, plus the bias down the rows. -/
def hostRows (gd : GatherDims ⟨2, ![N, K]⟩ ⟨2, ![E, 1]⟩ ⟨2, ![E, K]⟩) (dot : DotDims ⟨2, ![E, K]⟩ ⟨2, ![K, C]⟩ ⟨2, ![E, C]⟩)
    (hT : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![E, C]⟩ ![0, 1])
    (X : FVec Ideal ⟨2, ![N, K]⟩ .f32) (W : FVec Ideal ⟨2, ![C, K]⟩ .f32) (b : FVec Ideal ⟨1, ![C]⟩ .f32)
    (I : IVec ⟨2, ![E, 1]⟩ 32) : FVec Ideal ⟨2, ![E, C]⟩ .f32 :=
  addf (Host.dotGeneral dot none (Host.gather gd X I) (transpose ⟨2, ![K, C]⟩ [1, 0] W hT))
    (broadcastInDim ⟨2, ![E, C]⟩ ![0, 1] hb2 (broadcastInDim ⟨2, ![1, C]⟩ ![1] hb1 b))

/-- PICKING COMMUTES WITH THE ROW-WISE MAP, in the chain's names: when T holds the image of every row of X, the rows
    picked out of T are the picked rows of X mapped — for the plain row-picking and matrix-product dimension numbers. -/
theorem rows_eq (hN : 0 < N)
    (wfT : GatherDims.WF ⟨2, ![N, C]⟩ ⟨2, ![E, 1]⟩ ⟨2, ![E, C]⟩ [1] [0] [] [0] [] 1 ![1, C])
    (wfX : GatherDims.WF ⟨2, ![N, K]⟩ ⟨2, ![E, 1]⟩ ⟨2, ![E, K]⟩ [1] [0] [] [0] [] 1 ![1, K])
    (hT : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![E, C]⟩ ![0, 1])
    (h1 : FTy.bf16.bits < FTy.f32.bits)
    (X : FVec Ideal ⟨2, ![N, K]⟩ .f32) (W : FVec Ideal ⟨2, ![C, K]⟩ .f32) (b : FVec Ideal ⟨1, ![C]⟩ .f32)
    (T : FVec Ideal ⟨2, ![N, C]⟩ .bf16) (hTab : ∀ (r : Fin N) (j : Fin C), T (ix2 r j) = affRow X W b r j)
    (I : IVec ⟨2, ![E, 1]⟩ 32) :
    tableRows (SegmentOps.rowDims2 N C E wfT) h1 T I
      = hostRows (SegmentOps.rowDims2 N K E wfX) (DotDims.plain E K C) hT hb1 hb2 X W b I :=
  pick_affine_eq hN wfT wfX hT hb1 hb2 h1 X W b T hTab I

end Cert.Chain

end
-- ==== Proof.KernelSpec.lean ====
/-
  What the idealized kernel computes, as a function of its twenty-two argument arrays.

  Names: X₀ the node features (50000 × 128) and X₁ the hyperedge features (25000 × 128); four weights and biases; four
  columns of edge weights; four pairs of sender / receiver index words.
    · `nodeMsgs`   the first launch's table — the image of every row of X₀ under (W₂, b₃) — picked at the node-to-node
                   senders, scaled, summed at the receivers: a 50000-row array;
    · `hedgeTab`   the second launch's 256-column table — the image of every row of X₁ under the two hyperedge weights
                   stacked (W₄ above W₆, b₅ before b₇); its first 128 columns feed `nodeScale` (picked at the
                   hyperedge-to-node senders, summed at node receivers), its last 128 columns `hedgeMsgs` (picked at
                   the hyperedge-to-hyperedge senders, summed at hyperedge receivers);
    · `newNodes`   tanh (nodeScale · nodeMsgs), the third launch's first output and the program's first result;
    · `hedgeScale` the third launch's second output — the image of every row of `newNodes` under (W₈, b₉) — picked at
                   the node-to-hyperedge senders, scaled, summed at hyperedge receivers;
    · `newHedges`  tanh (hedgeScale · hedgeMsgs), the fourth launch's output and the program's second result.
-/
import proofs.«151167_j1357209665997_2_alg».proof.KernelIdeal
import proofs.«151167_j1357209665997_2_alg».proof.Proof.Gen.KernelIdeal
import proofs.«151167_j1357209665997_2_alg».proof.Proof.LibEdgeChain

noncomputable section

namespace Cert.KernelIdeal.Spec

open Cert.KernelIdeal Cert.KernelIdeal.Facts₀ Cert.KernelIdeal.Facts Cert.RowAffine Cert.Chain Idealize.ShloMosaic

/-- The first launch's table picked at the node-to-node senders, scaled and summed at the receivers. -/
def nodeMsgs (a0 : FVec Ideal S50000x128 .f32) (a2 : FVec Ideal S128x128 .f32) (a3 : FVec Ideal S128 .f32)
    (a10 : FVec Ideal S800000x1 .f32) (a14 a15 : IVec S800000 32) : FVec Ideal S50000x128 .f32 :=
  edgeSum scatter_S50000x128_S800000x1_S800000x128_1_0_0_1 bcast_S_S50000x128 bcast_S800000_S800000x1_0
    bcast_S800000x1_S800000x128_0_1 a15 a10
    (tableRows gather_S50000x128_S800000x1_S800000x128_1_0_n_n_0_1_1128 bitsLt_bf16_f32 (affTab a0 a2 a3)
      (wrapCol bcast_S_S800000 bcast_S800000_S800000x1_0 50000#32 a14))

/-- The second launch's table: every row of X₁ under the two hyperedge weights stacked. -/
def hedgeTab (a1 : FVec Ideal S25000x128 .f32) (a4 a6 : FVec Ideal S128x128 .f32) (a5 a7 : FVec Ideal S128 .f32) :
    FVec Ideal S25000x256 .bf16 :=
  affTab a1 (concatenate S256x128 0 [⟨S128x128, a4⟩, ⟨S128x128, a6⟩] concatenates_S128x128_S128x128_S256x128_d0)
    (concatenate S256 0 [⟨S128, a5⟩, ⟨S128, a7⟩] concatenates_S128_S128_S256_d0)

/-- Its first 128 columns picked at the hyperedge-to-node senders, scaled and summed at the node receivers. -/
def nodeScale (a1 : FVec Ideal S25000x128 .f32) (a4 a6 : FVec Ideal S128x128 .f32) (a5 a7 : FVec Ideal S128 .f32)
    (a11 : FVec Ideal S200000x1 .f32) (a16 a17 : IVec S200000 32) : FVec Ideal S50000x128 .f32 :=
  edgeSum scatter_S50000x128_S200000x1_S200000x128_1_0_0_1 bcast_S_S50000x128 bcast_S200000_S200000x1_0
    bcast_S200000x1_S200000x128_0_1 a17 a11
    (tableRows gather_S25000x128_S200000x1_S200000x128_1_0_n_n_0_1_1128 bitsLt_bf16_f32
      (extractStridedSlice S25000x128 ![0, 0] (hedgeTab a1 a4 a6 a5 a7) slices_S25000x256_S25000x128_0_0)
      (wrapCol bcast_S_S200000 bcast_S200000_S200000x1_0 25000#32 a16))

/-- Its last 128 columns picked at the hyperedge-to-hyperedge senders, scaled and summed at the hyperedge receivers. -/
def hedgeMsgs (a1 : FVec Ideal S25000x128 .f32) (a4 a6 : FVec Ideal S128x128 .f32) (a5 a7 : FVec Ideal S128 .f32)
    (a12 : FVec Ideal S400000x1 .f32) (a18 a19 : IVec S400000 32) : FVec Ideal S25000x128 .f32 :=
  edgeSum scatter_S25000x128_S400000x1_S400000x128_1_0_0_1 bcast_S_S25000x128 bcast_S400000_S400000x1_0
    bcast_S400000x1_S400000x128_0_1 a19 a12
    (tableRows gather_S25000x128_S400000x1_S400000x128_1_0_n_n_0_1_1128 bitsLt_bf16_f32
      (extractStridedSlice S25000x128 ![0, 128] (hedgeTab a1 a4 a6 a5 a7) slices_S25000x256_S25000x128_0_128)
      (wrapCol bcast_S_S400000 bcast_S400000_S400000x1_0 25000#32 a18))

/-- The image of every row of the new node features, picked at the node-to-hyperedge senders, scaled and summed at the
    hyperedge receivers. -/
def hedgeScale (U : FVec Ideal S50000x128 .f32) (a8 : FVec Ideal S128x128 .f32) (a9 : FVec Ideal S128 .f32)
    (a13 : FVec Ideal S200000x1 .f32) (a20 a21 : IVec S200000 32) : FVec Ideal S25000x128 .f32 :=
  edgeSum scatter_S25000x128_S200000x1_S200000x128_1_0_0_1 bcast_S_S25000x128 bcast_S200000_S200000x1_0
    bcast_S200000x1_S200000x128_0_1 a21 a13
    (tableRows gather_S50000x128_S200000x1_S200000x128_1_0_n_n_0_1_1128 bitsLt_bf16_f32 (affTab U a8 a9)
      (wrapCol bcast_S_S200000 bcast_S200000_S200000x1_0 50000#32 a20))

end Cert.KernelIdeal.Spec

end
-- ==== Proof.Walk.lean ====
/-
  The contents of the last segment boundary at the two results, read back to the launch memory.

  @main is: launch, two host operations, launch, thirty-six host operations, launch, thirty-two host operations, launch.
  The generated frame names the buffers' contents at each of the seven boundaries (`Gen.W1` … `Gen.W7`): after a
  launch, that launch's arrays at what its write-backs leave and every other buffer as before; after a stretch, the
  stretch's operations applied. Here each boundary is read at the few buffers the next step consumes.
    · A stretch of host operations is read from ANY contents X (`host1_…`, `host2_…`, `host3_…`): the buffer an
      operation chain ends in holds the chain applied to X at the chain's inputs, and a buffer the stretch never
      writes holds what X holds (`…_keeps_…`).
    · A launch's output array holds the closed form of its blocks (the four launch modules), of the contents on entry.
    · An argument array is never written, so at every boundary it holds what the launch memory m holds.
  Composed: the first result is `Spec.newNodes`-shaped — tanh (nodeScale · nodeMsgs) — and the second
  tanh (hedgeScale · hedgeMsgs), of the twenty-two argument arrays as launched (`W7_v32_0`, `W7_v59`).
-/
import proofs.«151167_j1357209665997_2_alg».proof.Proof.Gen.KernelIdeal.Frame
import proofs.«151167_j1357209665997_2_alg».proof.Proof.Blocks0
import proofs.«151167_j1357209665997_2_alg».proof.Proof.Blocks1
import proofs.«151167_j1357209665997_2_alg».proof.Proof.Blocks2
import proofs.«151167_j1357209665997_2_alg».proof.Proof.Blocks3
import proofs.«151167_j1357209665997_2_alg».proof.Proof.KernelSpec
import Idealize.ShloMosaic.Lib.StableHlo.Run

set_option maxRecDepth 16384

noncomputable section

namespace Cert.KernelIdeal.Walk

open Cert.KernelIdeal Cert.KernelIdeal.Gen Cert.KernelIdeal.Spec
open Cert.RowAffine Cert.Chain
open Idealize.ShloMosaic Idealize.ShloMosaic.TcCoe Idealize.ShloMosaic.StableHlo Idealize.SL.Sem

/-- A buffer that none of a stretch's operations writes keeps its contents through the stretch. -/
macro "keeps_through " ops:ident : tactic => `(tactic|
  exact after_of_forall_not_mem _ _ (List.forall_iff_forall_mem.mp (by
    simp only [$ops:ident, List.flatten_cons, List.flatten_nil, List.append_nil, List.cons_append, List.nil_append,
      List.Forall, nullary_writes, unary_writes, binary_writes, ternary_writes, quaternary_writes, reshape_writes,
      binaryIndexed_writes, Finset.mem_singleton]
    repeat' apply And.intro
    all_goals exact devRef_ne_of_ne (by decide))))

/-! ## The three stretches of host operations, from any contents -/

section Host

variable (X : Valuation τ sig (Elt Ideal))

theorem host1_v1 : after hostOps1 X (Proc.devRef .tc main_v1)
    = concatenate S256x128 0 [⟨S128x128, X (Proc.devRef .tc main_arg4)⟩, ⟨S128x128, X (Proc.devRef .tc main_arg6)⟩]
        concatenates_S128x128_S128x128_S256x128_d0 := by
  after_results

theorem host1_v2 : after hostOps1 X (Proc.devRef .tc main_v2)
    = concatenate S256 0 [⟨S128, X (Proc.devRef .tc main_arg5)⟩, ⟨S128, X (Proc.devRef .tc main_arg7)⟩]
        concatenates_S128_S128_S256_d0 := by
  after_results

theorem host1_keeps (b : Ref sig .tc) (h1 : b ≠ main_v1) (h2 : b ≠ main_v2) :
    after hostOps1 X (Proc.devRef .tc b) = X (Proc.devRef .tc b) := by
  simp only [after_cons, after_nil]
  rw [binary_result_ne (h := h2), binary_result_ne (h := h1)]

theorem host2_v18 : after hostOps2 X (Proc.devRef .tc main_v18)
    = edgeSum scatter_S50000x128_S800000x1_S800000x128_1_0_0_1 bcast_S_S50000x128 bcast_S800000_S800000x1_0
        bcast_S800000x1_S800000x128_0_1 (X (Proc.devRef .tc main_arg15)) (X (Proc.devRef .tc main_arg10))
        (tableRows gather_S50000x128_S800000x1_S800000x128_1_0_n_n_0_1_1128 bitsLt_bf16_f32 (X (Proc.devRef .tc main_v0))
          (wrapCol bcast_S_S800000 bcast_S800000_S800000x1_0 50000#32 (X (Proc.devRef .tc main_arg14)))) := by
  after_results_simp <;> rfl

theorem host2_v31 : after hostOps2 X (Proc.devRef .tc main_v31)
    = edgeSum scatter_S50000x128_S200000x1_S200000x128_1_0_0_1 bcast_S_S50000x128 bcast_S200000_S200000x1_0
        bcast_S200000x1_S200000x128_0_1 (X (Proc.devRef .tc main_arg17)) (X (Proc.devRef .tc main_arg11))
        (tableRows gather_S25000x128_S200000x1_S200000x128_1_0_n_n_0_1_1128 bitsLt_bf16_f32
          (extractStridedSlice S25000x128 ![0, 0] (X (Proc.devRef .tc main_v3)) slices_S25000x256_S25000x128_0_0)
          (wrapCol bcast_S_S200000 bcast_S200000_S200000x1_0 25000#32 (X (Proc.devRef .tc main_arg16)))) := by
  after_results_simp <;> rfl

theorem host2_v5 : after hostOps2 X (Proc.devRef .tc main_v5)
    = extractStridedSlice S25000x128 ![0, 128] (X (Proc.devRef .tc main_v3)) slices_S25000x256_S25000x128_0_128 := by
  after_results_simp <;> rfl

theorem host2_keeps_arg8 : after hostOps2 X (Proc.devRef .tc main_arg8) = X (Proc.devRef .tc main_arg8) := by keeps_through hostOps2
theorem host2_keeps_arg9 : after hostOps2 X (Proc.devRef .tc main_arg9) = X (Proc.devRef .tc main_arg9) := by keeps_through hostOps2
theorem host2_keeps_arg12 : after hostOps2 X (Proc.devRef .tc main_arg12) = X (Proc.devRef .tc main_arg12) := by keeps_through hostOps2
theorem host2_keeps_arg13 : after hostOps2 X (Proc.devRef .tc main_arg13) = X (Proc.devRef .tc main_arg13) := by keeps_through hostOps2
theorem host2_keeps_arg18 : after hostOps2 X (Proc.devRef .tc main_arg18) = X (Proc.devRef .tc main_arg18) := by keeps_through hostOps2
theorem host2_keeps_arg19 : after hostOps2 X (Proc.devRef .tc main_arg19) = X (Proc.devRef .tc main_arg19) := by keeps_through hostOps2
theorem host2_keeps_arg20 : after hostOps2 X (Proc.devRef .tc main_arg20) = X (Proc.devRef .tc main_arg20) := by keeps_through hostOps2
theorem host2_keeps_arg21 : after hostOps2 X (Proc.devRef .tc main_arg21) = X (Proc.devRef .tc main_arg21) := by keeps_through hostOps2

theorem host3_v45 : after hostOps3 X (Proc.devRef .tc main_v45)
    = edgeSum scatter_S25000x128_S400000x1_S400000x128_1_0_0_1 bcast_S_S25000x128 bcast_S400000_S400000x1_0
        bcast_S400000x1_S400000x128_0_1 (X (Proc.devRef .tc main_arg19)) (X (Proc.devRef .tc main_arg12))
        (tableRows gather_S25000x128_S400000x1_S400000x128_1_0_n_n_0_1_1128 bitsLt_bf16_f32 (X (Proc.devRef .tc main_v5))
          (wrapCol bcast_S_S400000 bcast_S400000_S400000x1_0 25000#32 (X (Proc.devRef .tc main_arg18)))) := by
  after_results_simp <;> rfl

theorem host3_v58 : after hostOps3 X (Proc.devRef .tc main_v58)
    = edgeSum scatter_S25000x128_S200000x1_S200000x128_1_0_0_1 bcast_S_S25000x128 bcast_S200000_S200000x1_0
        bcast_S200000x1_S200000x128_0_1 (X (Proc.devRef .tc main_arg21)) (X (Proc.devRef .tc main_arg13))
        (tableRows gather_S50000x128_S200000x1_S200000x128_1_0_n_n_0_1_1128 bitsLt_bf16_f32 (X (Proc.devRef .tc main_v32_1))
          (wrapCol bcast_S_S200000 bcast_S200000_S200000x1_0 50000#32 (X (Proc.devRef .tc main_arg20)))) := by
  after_results_simp <;> rfl

theorem host3_keeps_v32_0 : after hostOps3 X (Proc.devRef .tc main_v32_0) = X (Proc.devRef .tc main_v32_0) := by
  keeps_through hostOps3

end Host

/-! ## The boundaries, one at a time -/

variable (m : (ℓ : Loc nD τ sig) → Buf (Elt Ideal) ℓ) (ρ : Dev nD → PrngReg) (c : Dev nD)

/-- After the first launch a buffer that is none of its arrays holds what the launch memory holds. -/
theorem W1_keep (b : Ref sig .tc) (hb : ∀ w, Pipeline.arrRef spec0 w ≠ b) :
    W1 m ρ c (Proc.devRef .tc b) = m ((c : Thread nD τ).loc b) :=
  (W1_of_ne m ρ c b hb).trans rfl

/-- After the first launch its output holds the table of images of the node features' rows. -/
theorem W1_v0 : W1 m ρ c (Proc.devRef .tc main_v0)
    = affTab (m ((c : Thread nD τ).loc main_arg0)) (m ((c : Thread nD τ).loc main_arg2)) (m ((c : Thread nD τ).loc main_arg3)) :=
  (W1_arr m ρ c 3).trans (Blocks0.final (V0 m ρ) c)

/-- After the first stretch a buffer neither the first launch nor the stretch writes holds what the launch memory holds. -/
theorem W2_keep (b : Ref sig .tc) (h1 : b ≠ main_v1) (h2 : b ≠ main_v2) (hb : ∀ w, Pipeline.arrRef spec0 w ≠ b) :
    W2 m ρ c (Proc.devRef .tc b) = m ((c : Thread nD τ).loc b) :=
  (host1_keeps (W1 m ρ c) b h1 h2).trans (W1_keep m ρ c b hb)

theorem W2_v0 : W2 m ρ c (Proc.devRef .tc main_v0)
    = affTab (m ((c : Thread nD τ).loc main_arg0)) (m ((c : Thread nD τ).loc main_arg2)) (m ((c : Thread nD τ).loc main_arg3)) :=
  (host1_keeps (W1 m ρ c) main_v0 (by decide) (by decide)).trans (W1_v0 m ρ c)

theorem W2_v1 : W2 m ρ c (Proc.devRef .tc main_v1)
    = concatenate S256x128 0 [⟨S128x128, m ((c : Thread nD τ).loc main_arg4)⟩, ⟨S128x128, m ((c : Thread nD τ).loc main_arg6)⟩]
        concatenates_S128x128_S128x128_S256x128_d0 := by
  refine (host1_v1 (W1 m ρ c)).trans ?_
  rw [W1_keep m ρ c main_arg4 (by decide), W1_keep m ρ c main_arg6 (by decide)]

theorem W2_v2 : W2 m ρ c (Proc.devRef .tc main_v2)
    = concatenate S256 0 [⟨S128, m ((c : Thread nD τ).loc main_arg5)⟩, ⟨S128, m ((c : Thread nD τ).loc main_arg7)⟩]
        concatenates_S128_S128_S256_d0 := by
  refine (host1_v2 (W1 m ρ c)).trans ?_
  rw [W1_keep m ρ c main_arg5 (by decide), W1_keep m ρ c main_arg7 (by decide)]

/-- After the second launch a buffer that is none of its arrays, and that nothing before wrote, holds what the launch
    memory holds. -/
theorem W3_keep (b : Ref sig .tc) (h3 : ∀ w, Pipeline.arrRef spec1 w ≠ b) (h1 : b ≠ main_v1) (h2 : b ≠ main_v2)
    (hb : ∀ w, Pipeline.arrRef spec0 w ≠ b) : W3 m ρ c (Proc.devRef .tc b) = m ((c : Thread nD τ).loc b) :=
  (W3_of_ne m ρ c b h3).trans (W2_keep m ρ c b h1 h2 hb)

theorem W3_v0 : W3 m ρ c (Proc.devRef .tc main_v0)
    = affTab (m ((c : Thread nD τ).loc main_arg0)) (m ((c : Thread nD τ).loc main_arg2)) (m ((c : Thread nD τ).loc main_arg3)) :=
  (W3_of_ne m ρ c main_v0 (by decide)).trans (W2_v0 m ρ c)

/-- After the second launch its output holds the 256-column table of images of the hyperedge features' rows. -/
theorem W3_v3 : W3 m ρ c (Proc.devRef .tc main_v3)
    = hedgeTab (m ((c : Thread nD τ).loc main_arg1)) (m ((c : Thread nD τ).loc main_arg4)) (m ((c : Thread nD τ).loc main_arg6))
        (m ((c : Thread nD τ).loc main_arg5)) (m ((c : Thread nD τ).loc main_arg7)) := by
  have e1 : V2 m ρ c main_arg1 = m ((c : Thread nD τ).loc main_arg1) :=
    W2_keep m ρ c main_arg1 (by decide) (by decide) (by decide)
  have e2 : V2 m ρ c main_v1 = _ := W2_v1 m ρ c
  have e3 : V2 m ρ c main_v2 = _ := W2_v2 m ρ c
  refine (W3_arr m ρ c 3).trans ((Blocks1.final (V2 m ρ) c).trans ?_)
  unfold hedgeTab
  rw [e1, e2, e3]

/-- After the second stretch: the two node-side sums, the table's last 128 columns, and the untouched arguments. -/
theorem W4_v18 : W4 m ρ c (Proc.devRef .tc main_v18)
    = nodeMsgs (m ((c : Thread nD τ).loc main_arg0)) (m ((c : Thread nD τ).loc main_arg2)) (m ((c : Thread nD τ).loc main_arg3))
        (m ((c : Thread nD τ).loc main_arg10)) (m ((c : Thread nD τ).loc main_arg14)) (m ((c : Thread nD τ).loc main_arg15)) := by
  refine (host2_v18 (W3 m ρ c)).trans ?_
  unfold nodeMsgs
  rw [W3_keep m ρ c main_arg15 (by decide) (by decide) (by decide) (by decide),
    W3_keep m ρ c main_arg10 (by decide) (by decide) (by decide) (by decide),
    W3_keep m ρ c main_arg14 (by decide) (by decide) (by decide) (by decide), W3_v0 m ρ c]

theorem W4_v31 : W4 m ρ c (Proc.devRef .tc main_v31)
    = nodeScale (m ((c : Thread nD τ).loc main_arg1)) (m ((c : Thread nD τ).loc main_arg4)) (m ((c : Thread nD τ).loc main_arg6))
        (m ((c : Thread nD τ).loc main_arg5)) (m ((c : Thread nD τ).loc main_arg7)) (m ((c : Thread nD τ).loc main_arg11))
        (m ((c : Thread nD τ).loc main_arg16)) (m ((c : Thread nD τ).loc main_arg17)) := by
  refine (host2_v31 (W3 m ρ c)).trans ?_
  unfold nodeScale
  rw [W3_keep m ρ c main_arg17 (by decide) (by decide) (by decide) (by decide),
    W3_keep m ρ c main_arg11 (by decide) (by decide) (by decide) (by decide),
    W3_keep m ρ c main_arg16 (by decide) (by decide) (by decide) (by decide), W3_v3 m ρ c]

theorem W4_v5 : W4 m ρ c (Proc.devRef .tc main_v5)
    = extractStridedSlice S25000x128 ![0, 128]
        (hedgeTab (m ((c : Thread nD τ).loc main_arg1)) (m ((c : Thread nD τ).loc main_arg4)) (m ((c : Thread nD τ).loc main_arg6))
          (m ((c : Thread nD τ).loc main_arg5)) (m ((c : Thread nD τ).loc main_arg7))) slices_S25000x256_S25000x128_0_128 := by
  refine (host2_v5 (W3 m ρ c)).trans ?_
  rw [W3_v3 m ρ c]

theorem W4_arg8 : W4 m ρ c (Proc.devRef .tc main_arg8) = m ((c : Thread nD τ).loc main_arg8) :=
  (host2_keeps_arg8 (W3 m ρ c)).trans (W3_keep m ρ c main_arg8 (by decide) (by decide) (by decide) (by decide))
theorem W4_arg9 : W4 m ρ c (Proc.devRef .tc main_arg9) = m ((c : Thread nD τ).loc main_arg9) :=
  (host2_keeps_arg9 (W3 m ρ c)).trans (W3_keep m ρ c main_arg9 (by decide) (by decide) (by decide) (by decide))
theorem W4_arg12 : W4 m ρ c (Proc.devRef .tc main_arg12) = m ((c : Thread nD τ).loc main_arg12) :=
  (host2_keeps_arg12 (W3 m ρ c)).trans (W3_keep m ρ c main_arg12 (by decide) (by decide) (by decide) (by decide))
theorem W4_arg13 : W4 m ρ c (Proc.devRef .tc main_arg13) = m ((c : Thread nD τ).loc main_arg13) :=
  (host2_keeps_arg13 (W3 m ρ c)).trans (W3_keep m ρ c main_arg13 (by decide) (by decide) (by decide) (by decide))
theorem W4_arg18 : W4 m ρ c (Proc.devRef .tc main_arg18) = m ((c : Thread nD τ).loc main_arg18) :=
  (host2_keeps_arg18 (W3 m ρ c)).trans (W3_keep m ρ c main_arg18 (by decide) (by decide) (by decide) (by decide))
theorem W4_arg19 : W4 m ρ c (Proc.devRef .tc main_arg19) = m ((c : Thread nD τ).loc main_arg19) :=
  (host2_keeps_arg19 (W3 m ρ c)).trans (W3_keep m ρ c main_arg19 (by decide) (by decide) (by decide) (by decide))
theorem W4_arg20 : W4 m ρ c (Proc.devRef .tc main_arg20) = m ((c : Thread nD τ).loc main_arg20) :=
  (host2_keeps_arg20 (W3 m ρ c)).trans (W3_keep m ρ c main_arg20 (by decide) (by decide) (by decide) (by decide))
theorem W4_arg21 : W4 m ρ c (Proc.devRef .tc main_arg21) = m ((c : Thread nD τ).loc main_arg21) :=
  (host2_keeps_arg21 (W3 m ρ c)).trans (W3_keep m ρ c main_arg21 (by decide) (by decide) (by decide) (by decide))

/-- The new node features, as the third launch leaves them: tanh (nodeScale · nodeMsgs) of the arguments. -/
abbrev newNodes : FVec Ideal S50000x128 .f32 :=
  tanhMul
    (nodeScale (m ((c : Thread nD τ).loc main_arg1)) (m ((c : Thread nD τ).loc main_arg4)) (m ((c : Thread nD τ).loc main_arg6))
      (m ((c : Thread nD τ).loc main_arg5)) (m ((c : Thread nD τ).loc main_arg7)) (m ((c : Thread nD τ).loc main_arg11))
      (m ((c : Thread nD τ).loc main_arg16)) (m ((c : Thread nD τ).loc main_arg17)))
    (nodeMsgs (m ((c : Thread nD τ).loc main_arg0)) (m ((c : Thread nD τ).loc main_arg2)) (m ((c : Thread nD τ).loc main_arg3))
      (m ((c : Thread nD τ).loc main_arg10)) (m ((c : Thread nD τ).loc main_arg14)) (m ((c : Thread nD τ).loc main_arg15)))

theorem W5_v32_0 : W5 m ρ c (Proc.devRef .tc main_v32_0) = newNodes m c := by
  have e31 : V4 m ρ c main_v31 = _ := W4_v31 m ρ c
  have e18 : V4 m ρ c main_v18 = _ := W4_v18 m ρ c
  refine (W5_arr m ρ c 4).trans ((Blocks2.final4 (V4 m ρ) c).trans ?_)
  rw [e31, e18]

theorem W5_v32_1 : W5 m ρ c (Proc.devRef .tc main_v32_1)
    = affTab (newNodes m c) (m ((c : Thread nD τ).loc main_arg8)) (m ((c : Thread nD τ).loc main_arg9)) := by
  have e31 : V4 m ρ c main_v31 = _ := W4_v31 m ρ c
  have e18 : V4 m ρ c main_v18 = _ := W4_v18 m ρ c
  have e8 : V4 m ρ c main_arg8 = _ := W4_arg8 m ρ c
  have e9 : V4 m ρ c main_arg9 = _ := W4_arg9 m ρ c
  refine (W5_arr m ρ c 5).trans ((Blocks2.final5 (V4 m ρ) c).trans ?_)
  rw [e31, e18, e8, e9]

/-- After the third stretch: the two hyperedge-side sums, and the new node features untouched. -/
theorem W6_v45 : W6 m ρ c (Proc.devRef .tc main_v45)
    = hedgeMsgs (m ((c : Thread nD τ).loc main_arg1)) (m ((c : Thread nD τ).loc main_arg4)) (m ((c : Thread nD τ).loc main_arg6))
        (m ((c : Thread nD τ).loc main_arg5)) (m ((c : Thread nD τ).loc main_arg7)) (m ((c : Thread nD τ).loc main_arg12))
        (m ((c : Thread nD τ).loc main_arg18)) (m ((c : Thread nD τ).loc main_arg19)) := by
  refine (host3_v45 (W5 m ρ c)).trans ?_
  unfold hedgeMsgs
  rw [(W5_of_ne m ρ c main_arg19 (by decide)).trans (W4_arg19 m ρ c),
    (W5_of_ne m ρ c main_arg12 (by decide)).trans (W4_arg12 m ρ c),
    (W5_of_ne m ρ c main_arg18 (by decide)).trans (W4_arg18 m ρ c),
    (W5_of_ne m ρ c main_v5 (by decide)).trans (W4_v5 m ρ c)]

theorem W6_v58 : W6 m ρ c (Proc.devRef .tc main_v58)
    = hedgeScale (newNodes m c) (m ((c : Thread nD τ).loc main_arg8)) (m ((c : Thread nD τ).loc main_arg9))
        (m ((c : Thread nD τ).loc main_arg13)) (m ((c : Thread nD τ).loc main_arg20)) (m ((c : Thread nD τ).loc main_arg21)) := by
  refine (host3_v58 (W5 m ρ c)).trans ?_
  unfold hedgeScale
  rw [(W5_of_ne m ρ c main_arg21 (by decide)).trans (W4_arg21 m ρ c),
    (W5_of_ne m ρ c main_arg13 (by decide)).trans (W4_arg13 m ρ c),
    (W5_of_ne m ρ c main_arg20 (by decide)).trans (W4_arg20 m ρ c), W5_v32_1 m ρ c]

/-- THE FIRST RESULT at the last boundary: the new node features. -/
theorem W7_v32_0 : W7 m ρ c (Proc.devRef .tc main_v32_0) = newNodes m c :=
  (W7_of_ne m ρ c main_v32_0 (by decide)).trans ((host3_keeps_v32_0 (W5 m ρ c)).trans (W5_v32_0 m ρ c))

/-- The new hyperedge features, as the fourth launch leaves them: tanh (hedgeScale · hedgeMsgs) of the arguments. -/
abbrev newHedges : FVec Ideal S25000x128 .f32 :=
  tanhMul
    (hedgeScale (newNodes m c) (m ((c : Thread nD τ).loc main_arg8)) (m ((c : Thread nD τ).loc main_arg9))
      (m ((c : Thread nD τ).loc main_arg13)) (m ((c : Thread nD τ).loc main_arg20)) (m ((c : Thread nD τ).loc main_arg21)))
    (hedgeMsgs (m ((c : Thread nD τ).loc main_arg1)) (m ((c : Thread nD τ).loc main_arg4)) (m ((c : Thread nD τ).loc main_arg6))
      (m ((c : Thread nD τ).loc main_arg5)) (m ((c : Thread nD τ).loc main_arg7)) (m ((c : Thread nD τ).loc main_arg12))
      (m ((c : Thread nD τ).loc main_arg18)) (m ((c : Thread nD τ).loc main_arg19)))

/-- THE SECOND RESULT at the last boundary: the new hyperedge features. -/
theorem W7_v59 : W7 m ρ c (Proc.devRef .tc main_v59) = newHedges m c := by
  have e58 : V6 m ρ c main_v58 = _ := W6_v58 m ρ c
  have e45 : V6 m ρ c main_v45 = _ := W6_v45 m ρ c
  refine (W7_arr m ρ c 2).trans ((Blocks3.final (V6 m ρ) c).trans ?_)
  rw [e58, e45]

end Cert.KernelIdeal.Walk

end
-- ==== Proof.RefSpec.lean ====
/-
  What the idealized reference computes, as a function of its twenty-two argument arrays, in the chain's names.

  The reference has the kernel's four message paths with the affine map applied AFTER the rows are picked: each path
  picks rows of the raw features (or, for the last path, of the new node features) at the senders' index words, maps
  them — a matrix product with the transposed weight plus the bias down the rows (`hostRows`) —, scales them by the
  edge weights and sums them at the receivers (`edgeSum`). The hyperedge features go through two separate weights
  (W₄, b₅ for the node scale; W₆, b₇ for the hyperedge messages) where the kernel stacks them into one table. The two
  results are tanh (nodeScale · nodeMsgs) and tanh (hedgeScale · hedgeMsgs). `run_spec` is the generated run with its
  two result terms written this way: the names unfold to the printed operations, nothing is computed.
-/
import proofs.«151167_j1357209665997_2_alg».proof.ReferenceIdeal
import proofs.«151167_j1357209665997_2_alg».proof.Proof.Gen.ReferenceIdeal
import proofs.«151167_j1357209665997_2_alg».proof.Proof.Gen.ReferenceIdeal.Run
import proofs.«151167_j1357209665997_2_alg».proof.Proof.LibEdgeChain

set_option maxRecDepth 16384

noncomputable section

namespace Cert.ReferenceIdeal.Spec

open Cert.ReferenceIdeal Cert.ReferenceIdeal.Facts₀ Cert.ReferenceIdeal.Facts Cert.RowAffine Cert.Chain
open Idealize.ShloMosaic Idealize.ShloMosaic.TcCoe Idealize.SL.Sem

/-- The node features' rows picked at the node-to-node senders, mapped, scaled and summed at the receivers. -/
def nodeMsgs (a0 : FVec Ideal S50000x128 .f32) (a2 : FVec Ideal S128x128 .f32) (a3 : FVec Ideal S128 .f32)
    (a10 : FVec Ideal S800000x1 .f32) (a14 a15 : IVec S800000 32) : FVec Ideal S50000x128 .f32 :=
  edgeSum scatter_S50000x128_S800000x1_S800000x128_1_0_0_1 bcast_S_S50000x128 bcast_S800000_S800000x1_0
    bcast_S800000x1_S800000x128_0_1 a15 a10
    (hostRows gather_S50000x128_S800000x1_S800000x128_1_0_n_n_0_1_1128 dot_S800000x128_S128x128_S800000x128_1_0_0_1_n_n
      transposes_S128x128_S128x128_1_0 bcast_S128_S1x128_1 bcast_S1x128_S800000x128_0_1 a0 a2 a3
      (wrapCol bcast_S_S800000 bcast_S800000_S800000x1_0 50000#32 a14))

/-- The hyperedge features' rows picked at the hyperedge-to-node senders, mapped, scaled and summed at node receivers. -/
def nodeScale (a1 : FVec Ideal S25000x128 .f32) (a4 : FVec Ideal S128x128 .f32) (a5 : FVec Ideal S128 .f32)
    (a11 : FVec Ideal S200000x1 .f32) (a16 a17 : IVec S200000 32) : FVec Ideal S50000x128 .f32 :=
  edgeSum scatter_S50000x128_S200000x1_S200000x128_1_0_0_1 bcast_S_S50000x128 bcast_S200000_S200000x1_0
    bcast_S200000x1_S200000x128_0_1 a17 a11
    (hostRows gather_S25000x128_S200000x1_S200000x128_1_0_n_n_0_1_1128 dot_S200000x128_S128x128_S200000x128_1_0_0_1_n_n
      transposes_S128x128_S128x128_1_0 bcast_S128_S1x128_1 bcast_S1x128_S200000x128_0_1 a1 a4 a5
      (wrapCol bcast_S_S200000 bcast_S200000_S200000x1_0 25000#32 a16))

/-- The hyperedge features' rows picked at the hyperedge-to-hyperedge senders, mapped, scaled and summed at hyperedge
    receivers. -/
def hedgeMsgs (a1 : FVec Ideal S25000x128 .f32) (a6 : FVec Ideal S128x128 .f32) (a7 : FVec Ideal S128 .f32)
    (a12 : FVec Ideal S400000x1 .f32) (a18 a19 : IVec S400000 32) : FVec Ideal S25000x128 .f32 :=
  edgeSum scatter_S25000x128_S400000x1_S400000x128_1_0_0_1 bcast_S_S25000x128 bcast_S400000_S400000x1_0
    bcast_S400000x1_S400000x128_0_1 a19 a12
    (hostRows gather_S25000x128_S400000x1_S400000x128_1_0_n_n_0_1_1128 dot_S400000x128_S128x128_S400000x128_1_0_0_1_n_n
      transposes_S128x128_S128x128_1_0 bcast_S128_S1x128_1 bcast_S1x128_S400000x128_0_1 a1 a6 a7
      (wrapCol bcast_S_S400000 bcast_S400000_S400000x1_0 25000#32 a18))

/-- The new node features' rows picked at the node-to-hyperedge senders, mapped, scaled and summed at hyperedge
    receivers. -/
def hedgeScale (U : FVec Ideal S50000x128 .f32) (a8 : FVec Ideal S128x128 .f32) (a9 : FVec Ideal S128 .f32)
    (a13 : FVec Ideal S200000x1 .f32) (a20 a21 : IVec S200000 32) : FVec Ideal S25000x128 .f32 :=
  edgeSum scatter_S25000x128_S200000x1_S200000x128_1_0_0_1 bcast_S_S25000x128 bcast_S200000_S200000x1_0
    bcast_S200000x1_S200000x128_0_1 a21 a13
    (hostRows gather_S50000x128_S200000x1_S200000x128_1_0_n_n_0_1_1128 dot_S200000x128_S128x128_S200000x128_1_0_0_1_n_n
      transposes_S128x128_S128x128_1_0 bcast_S128_S1x128_1 bcast_S1x128_S200000x128_0_1 U a8 a9
      (wrapCol bcast_S_S200000 bcast_S200000_S200000x1_0 50000#32 a20))

variable (m : (ℓ : Loc nD τ sig) → Buf (Elt Ideal) ℓ) (ρ : Dev nD → PrngReg)

/-- The new node features: tanh (nodeScale · nodeMsgs) of the arguments. -/
abbrev newNodes (c : Dev nD) : FVec Ideal S50000x128 .f32 :=
  tanhMul
    (nodeScale (m ((c.tc : Thread nD τ).loc main_arg1)) (m ((c.tc : Thread nD τ).loc main_arg4)) (m ((c.tc : Thread nD τ).loc main_arg5))
      (m ((c.tc : Thread nD τ).loc main_arg11)) (m ((c.tc : Thread nD τ).loc main_arg16)) (m ((c.tc : Thread nD τ).loc main_arg17)))
    (nodeMsgs (m ((c.tc : Thread nD τ).loc main_arg0)) (m ((c.tc : Thread nD τ).loc main_arg2)) (m ((c.tc : Thread nD τ).loc main_arg3))
      (m ((c.tc : Thread nD τ).loc main_arg10)) (m ((c.tc : Thread nD τ).loc main_arg14)) (m ((c.tc : Thread nD τ).loc main_arg15)))

/-- The new hyperedge features: tanh (hedgeScale · hedgeMsgs) of the arguments. -/
abbrev newHedges (c : Dev nD) : FVec Ideal S25000x128 .f32 :=
  tanhMul
    (hedgeScale (newNodes m c) (m ((c.tc : Thread nD τ).loc main_arg8)) (m ((c.tc : Thread nD τ).loc main_arg9))
      (m ((c.tc : Thread nD τ).loc main_arg13)) (m ((c.tc : Thread nD τ).loc main_arg20)) (m ((c.tc : Thread nD τ).loc main_arg21)))
    (hedgeMsgs (m ((c.tc : Thread nD τ).loc main_arg1)) (m ((c.tc : Thread nD τ).loc main_arg6)) (m ((c.tc : Thread nD τ).loc main_arg7))
      (m ((c.tc : Thread nD τ).loc main_arg12)) (m ((c.tc : Thread nD τ).loc main_arg18)) (m ((c.tc : Thread nD τ).loc main_arg19)))

/-- The reference's run with its two results in these names (the arguments' conjuncts as the generated run has them). -/
theorem run_spec : θ_run defs (onTc (τ := τ) (main (F := Ideal))) ⟨m, fun _ => 0, ρ⟩ fun r => ∀ c : Dev nD,
      r.2.mem ((c.tc : Thread nD τ).loc main_v35) = newNodes m c
      ∧ r.2.mem ((c.tc : Thread nD τ).loc main_v71) = newHedges m c :=
  (θ_run defs _ _).mono (fun _ h c =>
      ⟨(h c).1.trans (by rw [hostTanh_mulf]; rfl),
       (h c).2.1.trans (by unfold Cert.ReferenceIdeal.Value.res_main_v71; rw [hostTanh_mulf, hostTanh_mulf]; rfl)⟩)
    (Cert.ReferenceIdeal.Value.run (F := Ideal) m ρ)

end Cert.ReferenceIdeal.Spec

end
-- ==== Proof.Bridge.lean ====
/-
  The two programs' message paths are equal, path by path.

  In each of the four paths the kernel picks rows out of a table that holds the image of every row of the raw array and
  the reference maps the rows after picking them; these are the same rows (picking commutes with a row-wise map), and
  everything after — the scaling by the edge weights and the summation at the receivers — is applied to them unopened.
  The one place with content beyond that is the stacked hyperedge table: the kernel maps the hyperedge features once,
  under the two weights stacked (W₄ above W₆) and the two biases joined (b₅ before b₇), into 256 columns, and then cuts
  the table in two. Column q < 128 of the table is built from row q of W₄ and entry q of b₅, so the left half holds the
  images under (W₄, b₅) (`hedgeTab_left`); column 128 + q is built from row q of W₆ and entry q of b₇, so the right half
  holds the images under (W₆, b₇) (`hedgeTab_right`). No law of arithmetic is used anywhere: the sums are equal term by
  term, so nothing is asked of the inputs.
-/
import proofs.«151167_j1357209665997_2_alg».proof.Proof.KernelSpec
import proofs.«151167_j1357209665997_2_alg».proof.Proof.RefSpec
import Idealize.ShloMosaic.Lib.ValueLayout
import Idealize.ShloMosaic.Lib.Pipeline.Value

set_option maxRecDepth 16384

noncomputable section

namespace Cert.Bridge

open Idealize.ShloMosaic Idealize.ShloMosaic.ValueIdx Cert.RowAffine Cert.Chain
open Cert.KernelIdeal.Spec renaming nodeMsgs → kNodeMsgs, nodeScale → kNodeScale, hedgeMsgs → kHedgeMsgs,
  hedgeScale → kHedgeScale, hedgeTab → kHedgeTab
open Cert.ReferenceIdeal.Spec renaming nodeMsgs → rNodeMsgs, nodeScale → rNodeScale, hedgeMsgs → rHedgeMsgs,
  hedgeScale → rHedgeScale

variable (a0 : FVec Ideal ⟨2, ![50000, 128]⟩ .f32) (a1 : FVec Ideal ⟨2, ![25000, 128]⟩ .f32)
  (a2 a4 a6 a8 : FVec Ideal ⟨2, ![128, 128]⟩ .f32) (a3 a5 a7 a9 : FVec Ideal ⟨1, ![128]⟩ .f32)
  (a10 : FVec Ideal ⟨2, ![800000, 1]⟩ .f32) (a11 a13 : FVec Ideal ⟨2, ![200000, 1]⟩ .f32)
  (a12 : FVec Ideal ⟨2, ![400000, 1]⟩ .f32)
  (a14 a15 : IVec ⟨1, ![800000]⟩ 32) (a16 a17 a20 a21 : IVec ⟨1, ![200000]⟩ 32) (a18 a19 : IVec ⟨1, ![400000]⟩ 32)
  (U : FVec Ideal ⟨2, ![50000, 128]⟩ .f32)

/-- The left 128 columns of the stacked table hold the images under the first hyperedge weight and bias. -/
theorem hedgeTab_left (r : Fin 25000) (j : Fin 128) :
    extractStridedSlice ⟨2, ![25000, 128]⟩ ![0, 0] (kHedgeTab a1 a4 a6 a5 a7)
        Cert.KernelIdeal.Facts₀.slices_S25000x256_S25000x128_0_0 (ix2 r j)
      = affRow a1 a4 a5 r j := by
  rw [slice2_axis1_eq]
  unfold Cert.KernelIdeal.Spec.hedgeTab
  rw [affTab_apply]
  refine affRow_congr _ _ _ _ _ _ _ _ _ _ (fun k => rfl) (fun k => ?_) ?_
  · refine concatenate_pair_apply_left (0 : Fin 2) a4 a6 _ (ix2 (⟨0 + j.val, by omega⟩ : Fin 256) k) rfl (ix2 j k)
      (fun b => ?_)
    match b with
    | ⟨0, _⟩ => show j.val = 0 + j.val; omega
    | ⟨1, _⟩ => rfl
  · refine concatenate_pair_apply_left (0 : Fin 1) a5 a7 _ (ix1 (⟨0 + j.val, by omega⟩ : Fin 256)) rfl (ix1 j)
      (fun b => ?_)
    match b with
    | ⟨0, _⟩ => show j.val = 0 + j.val; omega

/-- The right 128 columns of the stacked table hold the images under the second hyperedge weight and bias. -/
theorem hedgeTab_right (r : Fin 25000) (j : Fin 128) :
    extractStridedSlice ⟨2, ![25000, 128]⟩ ![0, 128] (kHedgeTab a1 a4 a6 a5 a7)
        Cert.KernelIdeal.Facts₀.slices_S25000x256_S25000x128_0_128 (ix2 r j)
      = affRow a1 a6 a7 r j := by
  rw [slice2_axis1_eq]
  unfold Cert.KernelIdeal.Spec.hedgeTab
  rw [affTab_apply]
  refine affRow_congr _ _ _ _ _ _ _ _ _ _ (fun k => rfl) (fun k => ?_) ?_
  · refine concatenate_pair_apply_right (0 : Fin 2) a4 a6 _ (ix2 (⟨128 + j.val, by omega⟩ : Fin 256) k) rfl rfl (ix2 j k)
      (fun b hb => ?_) (by show j.val + 128 = 128 + j.val; omega)
    match b with
    | ⟨0, _⟩ => exact absurd rfl hb
    | ⟨1, _⟩ => rfl
  · refine concatenate_pair_apply_right (0 : Fin 1) a5 a7 _ (ix1 (⟨128 + j.val, by omega⟩ : Fin 256)) rfl rfl (ix1 j)
      (fun b hb => ?_) (by show j.val + 128 = 128 + j.val; omega)
    match b with
    | ⟨0, _⟩ => exact absurd rfl hb

/-- The node-to-node path. -/
theorem nodeMsgs_eq : kNodeMsgs a0 a2 a3 a10 a14 a15 = rNodeMsgs a0 a2 a3 a10 a14 a15 := by
  unfold Cert.KernelIdeal.Spec.nodeMsgs Cert.ReferenceIdeal.Spec.nodeMsgs
  exact (congrArg (edgeSum _ _ _ _ a15 a10)
    (rows_eq (N := 50000) (K := 128) (C := 128) (E := 800000) (by norm_num) _ _ _ _ _ _ a0 a2 a3 (affTab a0 a2 a3)
      (fun r j => rfl) _)).trans rfl

/-- The hyperedge-to-node path: the stacked table's left half. -/
theorem nodeScale_eq : kNodeScale a1 a4 a6 a5 a7 a11 a16 a17 = rNodeScale a1 a4 a5 a11 a16 a17 := by
  unfold Cert.KernelIdeal.Spec.nodeScale Cert.ReferenceIdeal.Spec.nodeScale
  exact (congrArg (edgeSum _ _ _ _ a17 a11)
    (rows_eq (N := 25000) (K := 128) (C := 128) (E := 200000) (by norm_num) _ _ _ _ _ _ a1 a4 a5 _
      (hedgeTab_left a1 a4 a6 a5 a7) _)).trans rfl

/-- The hyperedge-to-hyperedge path: the stacked table's right half. -/
theorem hedgeMsgs_eq : kHedgeMsgs a1 a4 a6 a5 a7 a12 a18 a19 = rHedgeMsgs a1 a6 a7 a12 a18 a19 := by
  unfold Cert.KernelIdeal.Spec.hedgeMsgs Cert.ReferenceIdeal.Spec.hedgeMsgs
  exact (congrArg (edgeSum _ _ _ _ a19 a12)
    (rows_eq (N := 25000) (K := 128) (C := 128) (E := 400000) (by norm_num) _ _ _ _ _ _ a1 a6 a7 _
      (hedgeTab_right a1 a4 a6 a5 a7) _)).trans rfl

/-- The node-to-hyperedge path, from any new node features U. -/
theorem hedgeScale_eq : kHedgeScale U a8 a9 a13 a20 a21 = rHedgeScale U a8 a9 a13 a20 a21 := by
  unfold Cert.KernelIdeal.Spec.hedgeScale Cert.ReferenceIdeal.Spec.hedgeScale
  exact (congrArg (edgeSum _ _ _ _ a21 a13)
    (rows_eq (N := 50000) (K := 128) (C := 128) (E := 200000) (by norm_num) _ _ _ _ _ _ U a8 a9 (affTab U a8 a9)
      (fun r j => rfl) _)).trans rfl

/-- THE FIRST RESULT: the two programs' new node features are one array. -/
theorem newNodes_eq :
    tanhMul (kNodeScale a1 a4 a6 a5 a7 a11 a16 a17) (kNodeMsgs a0 a2 a3 a10 a14 a15)
      = tanhMul (rNodeScale a1 a4 a5 a11 a16 a17) (rNodeMsgs a0 a2 a3 a10 a14 a15) := by
  rw [nodeScale_eq, nodeMsgs_eq]

/-- THE SECOND RESULT: from equal new node features, the two programs' new hyperedge features are one array. -/
theorem newHedges_eq :
    tanhMul (kHedgeScale U a8 a9 a13 a20 a21) (kHedgeMsgs a1 a4 a6 a5 a7 a12 a18 a19)
      = tanhMul (rHedgeScale U a8 a9 a13 a20 a21) (rHedgeMsgs a1 a6 a7 a12 a18 a19) := by
  rw [hedgeScale_eq, hedgeMsgs_eq]

end Cert.Bridge

end
-- ==== Proof.lean ====
/-
  The certificate of a hypergraph message-passing layer: a kernel that maps first and picks afterwards, against a
  reference that picks first and maps afterwards.

  THE MATHEMATICS. Both programs compute, from node features X₀ (50000 × 128) and hyperedge features X₁ (25000 × 128),
      new nodes  = tanh ( Σ_{hyperedge→node} c · L₄₅(X₁[s])  ·  Σ_{node→node} c · L₂₃(X₀[s]) ),
      new hedges = tanh ( Σ_{node→hyperedge} c · L₈₉(new nodes[s])  ·  Σ_{hyperedge→hyperedge} c · L₆₇(X₁[s]) ),
  where L_{W b}(x) = W x + b is a row-wise affine map, [s] picks rows at the senders' index words, c scales each picked
  row by its edge's weight, and Σ adds the rows up at the receivers. The reference computes L(X[s]): it picks rows, then
  maps them. The kernel computes L(X)[s]: four launches map WHOLE tables (the two hyperedge maps as one map with the
  weights stacked, cut in two afterwards; the tanh of the product fused into the third and fourth launches), and the
  picking, scaling and summing stay on the host between the launches. Entry j of L(x) is ∑ₖ x(k) · W(j,k) + b(j), which
  depends on the one row x only, so L(X)[s] and L(X[s]) are the same rows, sum for sum and term for term; the rest of
  each path is the same operations applied to equal arrays. No law of arithmetic is needed — no distributivity, no
  cancellation — so the claim holds on all extended reals and the precondition (finite inputs) is never opened. A change
  of float format is the identity on the extended reals, so the kernel's narrowed tables cost nothing.

  THE PROOF. The three frames: the two kernels' are generated; the reference's is its generated run with the results
  dropped. The ideal pass rewrote nothing, so the idealization claim is trivial. For the value claim: the kernel's run
  ends with its two results at the last segment boundary's contents (KernelRun), which read back, boundary by boundary,
  to the chain above over the launch memory (Walk, over the four launches' blocks-to-array closed forms Blocks0–3 and the
  three host stretches); the reference's generated run states its results as the printed operations, which are the same
  chain with the map after the picking (RefSpec); the two chains are equal path by path (Bridge, from LibRowAffine and
  LibEdgeChain); and the two memories agree on the arguments.
-/
import proofs.«151167_j1357209665997_2_alg».proof.Defs
import proofs.«151167_j1357209665997_2_alg».proof.Proof.Gen.Kernel
import proofs.«151167_j1357209665997_2_alg».proof.Proof.Gen.Kernel.Skeleton
import proofs.«151167_j1357209665997_2_alg».proof.Proof.Gen.Kernel.Launch
import proofs.«151167_j1357209665997_2_alg».proof.Proof.Gen.Kernel.Points
import proofs.«151167_j1357209665997_2_alg».proof.Proof.Gen.Kernel.Frame
import proofs.«151167_j1357209665997_2_alg».proof.Proof.Gen.KernelIdeal
import proofs.«151167_j1357209665997_2_alg».proof.Proof.Gen.KernelIdeal.Skeleton
import proofs.«151167_j1357209665997_2_alg».proof.Proof.Gen.KernelIdeal.Launch
import proofs.«151167_j1357209665997_2_alg».proof.Proof.Gen.KernelIdeal.Points
import proofs.«151167_j1357209665997_2_alg».proof.Proof.Gen.KernelIdeal.Frame
import proofs.«151167_j1357209665997_2_alg».proof.Proof.Gen.ReferenceIdeal
import proofs.«151167_j1357209665997_2_alg».proof.Proof.Gen.ReferenceIdeal.Run
import proofs.«151167_j1357209665997_2_alg».proof.Proof.Gen.Pre_finite_inputs
import proofs.«151167_j1357209665997_2_alg».proof.Proof.KernelRun
import proofs.«151167_j1357209665997_2_alg».proof.Proof.Walk
import proofs.«151167_j1357209665997_2_alg».proof.Proof.RefSpec
import proofs.«151167_j1357209665997_2_alg».proof.Proof.Bridge
import Idealize.ShloMosaic.Adequacy
import Idealize.ShloMosaic.Init

set_option maxRecDepth 16384

noncomputable section

namespace Cert.Proof

open Idealize.ShloMosaic Idealize.SL.Sem Cert.RowAffine

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments the reference's new node features are the kernel's. -/
theorem nodes_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (g15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (g16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (g17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Spec.newNodes m' c = Cert.KernelIdeal.Walk.newNodes m c := by
  unfold Cert.ReferenceIdeal.Spec.newNodes Cert.KernelIdeal.Walk.newNodes
  rw [g0, g1, g2, g3, g4, g5, g10, g11, g14, g15, g16, g17]
  exact (Cert.Bridge.newNodes_eq _ _ _ _ _ _ _ _ _ _ _ _ _ _).symm

/-- At the ideal values the kernel's two results and the reference's are the same arrays of the arguments. -/
theorem algebraic : Cert.algebraic_KernelIdeal_ReferenceIdeal := by
  intro m ρ m' ρ' _ hagree
  refine ⟨fun c => Cert.KernelIdeal.Walk.newNodes m c, fun c => Cert.KernelIdeal.Walk.newHedges m c, ?_, ?_⟩
  · exact (θ_run Cert.KernelIdeal.defs _ _).mono
      (fun r h c => ⟨(h c).1.trans (Cert.KernelIdeal.Walk.W7_v32_0 m ρ c),
        (h c).2.1.trans (Cert.KernelIdeal.Walk.W7_v59 m ρ c), (h c).2.2⟩)
      (Cert.KernelIdeal.Named.run_named m ρ)
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15, g16, g17, g18, g19, g20, g21⟩ := hagree c
    have hU : Cert.ReferenceIdeal.Spec.newNodes m' c = Cert.KernelIdeal.Walk.newNodes m c :=
      nodes_agree m m' c g0 g1 g2 g3 g4 g5 g10 g11 g14 g15 g16 g17
    have r0 : r.2.mem ((c.tc : Thread Cert.ReferenceIdeal.nD Cert.ReferenceIdeal.τ).loc Cert.ReferenceIdeal.main_v35)
        = Cert.ReferenceIdeal.Spec.newNodes m' c :=
      (h c).1.trans (by rw [hostTanh_mulf]; rfl)
    have r1 : r.2.mem ((c.tc : Thread Cert.ReferenceIdeal.nD Cert.ReferenceIdeal.τ).loc Cert.ReferenceIdeal.main_v71)
        = Cert.ReferenceIdeal.Spec.newHedges m' c :=
      (h c).2.1.trans (by unfold Cert.ReferenceIdeal.Value.res_main_v71; rw [hostTanh_mulf, hostTanh_mulf]; rfl)
    refine ⟨r0.trans hU, r1.trans ?_, (h c).2.2⟩
    unfold Cert.ReferenceIdeal.Spec.newHedges Cert.KernelIdeal.Walk.newHedges
    rw [hU, g1, g6, g7, g8, g9, g12, g13, g18, g19, g20, g21]
    exact (Cert.Bridge.newHedges_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
